-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x576x96 : Shape := ⟨3, ![16, 576, 96]⟩
abbrev S64 : Shape := ⟨1, ![64]⟩
abbrev S_ : Shape := ⟨0, ![]⟩

class Facts : Prop where
  bcast_S_S16x576x96 : S_.BroadcastsInDim S16x576x96 (![] : Fin 0 → Fin S16x576x96.rank)
  reducesTo_S16x576x96_S_d0_1_2 : S16x576x96.ReducesTo [0, 1, 2] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S16x576x96 .f32) (main_arg1 : FVec F S64 .f32) : IVec S_ 1 :=
  let main_v0 : FVec F S16x576x96 .f32 := Host.absf main_arg0
  let main_cst : FVec F S_ .f32 := constant S_ .f32 0x7F800000#32
  let main_v1 : FVec F S16x576x96 .f32 := broadcastInDim S16x576x96 ![] bcast_S_S16x576x96 main_cst
  let main_v2 : IVec S16x576x96 1 := cmpf .olt main_v0 main_v1
  let main_c : IVec S_ 1 := constantI S_ 1 1#1
  let main_v3 : IVec S_ 1 := (fun x v => Host.reduce IntOp.andi x v reducesTo_S16x576x96_S_d0_1_2 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  main_v8
-- ==== Kernel.lean ====
abbrev S16x576x96 : Shape := ⟨3, ![16, 576, 96]⟩
abbrev S64 : Shape := ⟨1, ![64]⟩
abbrev S442368x2 : Shape := ⟨2, ![442368, 2]⟩
abbrev S128 : Shape := ⟨1, ![128]⟩
abbrev S1x128 : Shape := ⟨2, ![1, 128]⟩
abbrev S442368x128 : Shape := ⟨2, ![442368, 128]⟩
abbrev S16x576x96x64 : Shape := ⟨4, ![16, 576, 96, 64]⟩
abbrev S1024x2 : Shape := ⟨2, ![1024, 2]⟩
abbrev S1024x128 : Shape := ⟨2, ![1024, 128]⟩
abbrev S1024x1 : Shape := ⟨2, ![1024, 1]⟩
abbrev S1024x64 : Shape := ⟨2, ![1024, 64]⟩
abbrev S1024 : Shape := ⟨1, ![1024]⟩

abbrev nBuf : Space → Nat
  | .hbm => 9
  | .vmem => 7
  | .smem => 0
  | _ => 0

abbrev bufTy : (tb : Table) → Fin (tcTables nBuf tb) → BufTy
  | .hbm, ⟨0, _⟩ => ⟨S16x576x96, .f32⟩
  | .hbm, ⟨1, _⟩ => ⟨S64, .f32⟩
  | .hbm, ⟨2, _⟩ => ⟨S442368x2, .f32⟩
  | .hbm, ⟨3, _⟩ => ⟨S128, .f32⟩
  | .hbm, ⟨4, _⟩ => ⟨S1x128, .f32⟩
  | .hbm, ⟨5, _⟩ => ⟨S442368x128, .f32⟩
  | .hbm, ⟨6, _⟩ => ⟨S442368x2, .f32⟩
  | .hbm, ⟨7, _⟩ => ⟨S16x576x96x64, .f32⟩
  | .hbm, ⟨8, _⟩ => ⟨S16x576x96, .f32⟩
  | .local _ .vmem, ⟨0, _⟩ => ⟨S1024x2, .f32⟩
  | .local _ .vmem, ⟨1, _⟩ => ⟨S1024x2, .f32⟩
  | .local _ .vmem, ⟨2, _⟩ => ⟨S1x128, .f32⟩
  | .local _ .vmem, ⟨3, _⟩ => ⟨S1024x128, .f32⟩
  | .local _ .vmem, ⟨4, _⟩ => ⟨S1024x128, .f32⟩
  | .local _ .vmem, ⟨5, _⟩ => ⟨S1024x2, .f32⟩
  | .local _ .vmem, ⟨6, _⟩ => ⟨S1024x2, .f32⟩
  | _, _ => ⟨S16x576x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3_0 : Ref sig .tc := ⟨.hbm, 5, rfl⟩
abbrev main_call0_v3_1 : Ref sig .tc := ⟨.hbm, 6, rfl⟩
abbrev main_v0_1 : Ref sig .tc := ⟨.hbm, 7, rfl⟩
abbrev main_v0_0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![432], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x576x96_S442368x2 : S16x576x96.ShapeCasts S442368x2
  concatenates_S64_S64_S128_d0 : Shape.Concatenates [S64, S64] S128 0
  shapeCasts_S128_S1x128 : S128.ShapeCasts S1x128
  shapeCasts_S442368x128_S16x576x96x64 : S442368x128.ShapeCasts S16x576x96x64
  shapeCasts_S442368x2_S16x576x96 : S442368x2.ShapeCasts S16x576x96
  inb_S1024x2_S1024x2_0_0 : ∀ a, (![0, 0] : Fin 2 → Nat) a + S1024x2.size a ≤ S1024x2.size a
  h_S1024x2 : 0 < S1024x2.numel
  shapeCasts_S1024x2_S1024x2 : S1024x2.ShapeCasts S1024x2
  inb_S1x128_S1x128_0_0 : ∀ a, (![0, 0] : Fin 2 → Nat) a + S1x128.size a ≤ S1x128.size a
  h_S1x128 : 0 < S1x128.numel
  shapeCasts_S1x128_S1x128 : S1x128.ShapeCasts S1x128
  iota_S1024x128_d1_w32 : S1024x128.Iotas .tc 32 [1]
  slices_S1024x2_o0_0_S1024x1 : S1024x2.Slices ![0, 0] S1024x1
  slices_S1024x2_o0_1_S1024x1 : S1024x2.Slices ![0, 1] S1024x1
  shapeCasts_S1024x1_S1024x1 : S1024x1.ShapeCasts S1024x1
  broadcasts_S1024x1_S1024x128 : S1024x1.Broadcasts S1024x128
  broadcasts_S1x128_S1024x128 : S1x128.Broadcasts S1024x128
  slices_S1024x128_o0_0_S1024x64 : S1024x128.Slices ![0, 0] S1024x64
  reduces_S1024x64_S1024 : S1024x64.Reduces [1] S1024
  shapeCasts_S1024_S1024x1 : S1024.ShapeCasts S1024x1
  slices_S1024x128_o0_64_S1024x64 : S1024x128.Slices ![0, 64] S1024x64
  inb_S1024x128_S1024x128_0_0 : ∀ a, (![0, 0] : Fin 2 → Nat) a + S1024x128.size a ≤ S1024x128.size a
  h_S1024x128 : 0 < S1024x128.numel
  concatenates_S1024x1_S1024x1_S1024x2_d1 : Shape.Concatenates [S1024x1, S1024x1] S1024x2 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2.size a ≤ S442368x2.size a
  hwx0_0 : ∀ i : grid0.Coords, EltTy.bits .f32 = 32 ∨ (Rect.block (s := S442368x2) S1024x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S442368x128.size a
  hwx0_2 : ∀ i : grid0.Coords, EltTy.bits .f32 = 32 ∨ (Rect.block (s := S442368x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2.size a ≤ S442368x2.size a
  hwx0_3 : ∀ i : grid0.Coords, EltTy.bits .f32 = 32 ∨ (Rect.block (s := S442368x2) S1024x2.size (cc0_transform_3 i) (hinb0_3 i)).WholeWords (EltTy.packing .f32)

variable [Facts₀]

abbrev win0_0 : Pipeline.Window sig grid0 :=
  Pipeline.Window.ofSpec (Memref.whole main_call0_v0) S1024x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3_0) S1024x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3_1) S1024x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x576x96 : Shape := ⟨3, ![16, 576, 96]⟩
abbrev S64 : Shape := ⟨1, ![64]⟩
abbrev S884736x1 : Shape := ⟨2, ![884736, 1]⟩
abbrev S1x64 : Shape := ⟨2, ![1, 64]⟩
abbrev S884736x64 : Shape := ⟨2, ![884736, 64]⟩
abbrev S_ : Shape := ⟨0, ![]⟩
abbrev S884736 : Shape := ⟨1, ![884736]⟩
abbrev S64x1 : Shape := ⟨2, ![64, 1]⟩
abbrev S16x576x96x64 : Shape := ⟨4, ![16, 576, 96, 64]⟩

abbrev nBuf : Space → Nat
  | .hbm => 32
  | .vmem => 0
  | .smem => 0
  | _ => 0

abbrev bufTy : (tb : Table) → Fin (tcTables nBuf tb) → BufTy
  | .hbm, ⟨0, _⟩ => ⟨S16x576x96, .f32⟩
  | .hbm, ⟨1, _⟩ => ⟨S64, .f32⟩
  | .hbm, ⟨2, _⟩ => ⟨S884736x1, .f32⟩
  | .hbm, ⟨3, _⟩ => ⟨S1x64, .f32⟩
  | .hbm, ⟨4, _⟩ => ⟨S884736x64, .f32⟩
  | .hbm, ⟨5, _⟩ => ⟨S884736x64, .f32⟩
  | .hbm, ⟨6, _⟩ => ⟨S884736x64, .f32⟩
  | .hbm, ⟨7, _⟩ => ⟨S884736x64, .f32⟩
  | .hbm, ⟨8, _⟩ => ⟨S884736x64, .f32⟩
  | .hbm, ⟨9, _⟩ => ⟨S_, .f32⟩
  | .hbm, ⟨10, _⟩ => ⟨S884736x64, .f32⟩
  | .hbm, ⟨11, _⟩ => ⟨S884736x64, .f32⟩
  | .hbm, ⟨12, _⟩ => ⟨S_, .f32⟩
  | .hbm, ⟨13, _⟩ => ⟨S884736, .f32⟩
  | .hbm, ⟨14, _⟩ => ⟨S_, .f32⟩
  | .hbm, ⟨15, _⟩ => ⟨S884736, .f32⟩
  | .hbm, ⟨16, _⟩ => ⟨S884736, .f32⟩
  | .hbm, ⟨17, _⟩ => ⟨S884736x1, .f32⟩
  | .hbm, ⟨18, _⟩ => ⟨S884736x64, .f32⟩
  | .hbm, ⟨19, _⟩ => ⟨S884736x64, .f32⟩
  | .hbm, ⟨20, _⟩ => ⟨S884736x64, .f32⟩
  | .hbm, ⟨21, _⟩ => ⟨S_, .f32⟩
  | .hbm, ⟨22, _⟩ => ⟨S884736, .f32⟩
  | .hbm, ⟨23, _⟩ => ⟨S884736x1, .f32⟩
  | .hbm, ⟨24, _⟩ => ⟨S884736x64, .f32⟩
  | .hbm, ⟨25, _⟩ => ⟨S884736x64, .f32⟩
  | .hbm, ⟨26, _⟩ => ⟨S64x1, .f32⟩
  | .hbm, ⟨27, _⟩ => ⟨S884736x1, .f32⟩
  | .hbm, ⟨28, _⟩ => ⟨S16x576x96, .f32⟩
  | .hbm, ⟨29, _⟩ => ⟨S16x576x96, .f32⟩
  | .hbm, ⟨30, _⟩ => ⟨S16x576x96, .f32⟩
  | .hbm, ⟨31, _⟩ => ⟨S16x576x96x64, .f32⟩
  | _, _ => ⟨S16x576x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]

class Facts₀ : Prop where
  shapeCasts_S16x576x96_S884736x1 : S16x576x96.ShapeCasts S884736x1
  shapeCasts_S64_S1x64 : S64.ShapeCasts S1x64
  bcast_S884736x1_S884736x64_0_1 : S884736x1.BroadcastsInDim S884736x64 (![0, 1] : Fin 2 → Fin S884736x64.rank)
  bcast_S1x64_S884736x64_0_1 : S1x64.BroadcastsInDim S884736x64 (![0, 1] : Fin 2 → Fin S884736x64.rank)
  bcast_S_S884736x64 : S_.BroadcastsInDim S884736x64 (![] : Fin 0 → Fin S884736x64.rank)
  reducesTo_S884736x64_S884736_d1 : S884736x64.ReducesTo [1] S884736
  h_S_ : 0 < S_.numel
  bcast_S_S884736 : S_.BroadcastsInDim S884736 (![] : Fin 0 → Fin S884736.rank)
  bcast_S884736_S884736x1_0 : S884736.BroadcastsInDim S884736x1 (![0] : Fin 1 → Fin S884736x1.rank)
  shapeCasts_S64_S64x1 : S64.ShapeCasts S64x1
  shapeCasts_S884736x1_S16x576x96 : S884736x1.ShapeCasts S16x576x96
  shapeCasts_S884736x64_S16x576x96x64 : S884736x64.ShapeCasts S16x576x96x64
  dot_S884736x64_S64x1_S884736x1_1_0_0_1_n_n_wf : DotDims.WF S884736x64 S64x1 S884736x1 [1] [0] [0] [1] [] []

variable [Facts₀]

def dot_S884736x64_S64x1_S884736x1_1_0_0_1_n_n : DotDims S884736x64 S64x1 S884736x1 where
  lhsContracting := [1]
  rhsContracting := [0]
  lhsNonContracting := [0]
  rhsNonContracting := [1]
  lhsBatch := []
  rhsBatch := []
  wf := dot_S884736x64_S64x1_S884736x1_1_0_0_1_n_n_wf

class Facts : Prop extends Facts₀ where

variable [Facts]
-- ==== Proof.SoftQuant.lean ====
/-
  Soft quantisation of one number against a finite family of centres, in two arrangements.

  Given a number x and centres c_k, centre k gets the weight exp(−|x − c_k|); the assignment of x to centre k is
  its weight's share of the total, and the quantised value is the centres' average under those shares.

  The direct arrangement takes the weights as they are, multiplies each by the reciprocal of their total, and
  forms the quantised value as (Σ_k w_k · c_k) · (1 / Σ_j w_j).

  The shifted arrangement first subtracts from every score −|x − c_k| (divided by the temperature 1) the largest
  score, so that every exponent is at most 0; it divides each shifted weight by the shifted total, contracts the
  shares with the centres, and returns x + (that − x).

  Both are stated on the extended reals with the total operations of the ideal reading of floats, and with the
  absolute value spelled as the larger of a number and its negative.  The float words are the ones the two
  programs print: zero, one, and minus infinity.
-/
import Idealize.ShloMosaic.PureOps.Ideal

noncomputable section

open Idealize.ShloMosaic

namespace Cert.SoftQuant

variable {C : Type} [Fintype C]

/-- |x − c|, as the larger of the difference and its negative. -/
def dist (x c : EReal) : EReal := max (x - c) (-(x - c))

/-- The weight of a centre: exp(0 − |x − c|). -/
def weight (x c : EReal) : EReal := Ideal.exp (Ideal.ofBits .f32 0x00000000#32 - dist x c)

/-- One over the total of the weights. -/
def recipTotal (x : EReal) (c : C → EReal) : EReal :=
  Ideal.div (Ideal.ofBits .f32 0x3F800000#32) (∑ j, weight x (c j))

/-- The direct arrangement's assignment of x to centre k: its weight times the reciprocal of the total. -/
def assignDirect (x : EReal) (c : C → EReal) (k : C) : EReal := weight x (c k) * recipTotal x c

/-- The direct arrangement's quantised value: (Σ_j w_j · c_j) · (1 / Σ_j w_j). -/
def quantDirect (x : EReal) (c : C → EReal) : EReal := (∑ j, weight x (c j) * c j) * recipTotal x c

/-- The score of a centre as the shifted arrangement spells it: (−|x − c|) / 1. -/
def score (x c : EReal) : EReal := Ideal.div (-(dist x c)) (Ideal.ofBits .f32 0x3F800000#32)

/-- The largest score, folded from minus infinity, and once more compared with minus infinity. -/
def shift (x : EReal) (c : C → EReal) : EReal :=
  max (Ideal.ofBits .f32 0xFF800000#32)
    ((Finset.univ : Finset C).fold max (Ideal.ofBits .f32 0xFF800000#32) (fun k => score x (c k)))

/-- The shifted weight of centre k: exp(score_k − largest score). -/
def shifted (x : EReal) (c : C → EReal) (k : C) : EReal := Ideal.exp (score x (c k) - shift x c)

/-- The shifted arrangement's assignment: the shifted weight over the shifted total (summed from zero). -/
def assignShifted (x : EReal) (c : C → EReal) (k : C) : EReal :=
  Ideal.div (shifted x c k) (Ideal.ofBits .f32 0x00000000#32 + ∑ j, shifted x c j)

/-- The shifted arrangement's quantised value: x + (Σ_k share_k · c_k − x). -/
def quantShifted (x : EReal) (c : C → EReal) : EReal := x + ((∑ k, assignShifted x c k * c k) - x)

end Cert.SoftQuant

end
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.KernelRow.lean ====
/-
  One row of a block, read entry by entry.

  A block of the kernel holds 1024 rows; a row holds two consecutive elements of the flattened input (its two
  columns) and 128 lanes, lanes 0…63 belonging to the row's first element and lanes 64…127 to its second.  The
  one-row array of centres holds the 64 centres twice, so lane 64·h + j carries centre j for either half h.

  Read at row r and lane 64·h + k, the body's assignment block is the direct arrangement's assignment of the row's
  element h to centre k: the weight exp(0 − |x − c_k|) of that lane times the reciprocal of the sum of the 64 weights
  of its half.  Read at row r and column h, the body's quantised block is (Σ_j w_j · c_j) · (1 / Σ_j w_j) over the
  lanes of half h.  The lane mask "lane < 64" chooses, lane by lane, which of the two elements and which of the two
  reciprocals a lane sees; the two half sums are sums over 64 consecutive lanes starting at 0 and at 64.
-/
import proofs.«148553_g82265803587872_cont_9to1_m_387_2_alg».proof.Proof.Gen.KernelIdeal.Frame
import proofs.«148553_g82265803587872_cont_9to1_m_387_2_alg».proof.Proof.SoftQuant
import proofs.«148553_g82265803587872_cont_9to1_m_387_2_alg».proof.Proof.LibLayout
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx Cert.SoftQuant

/-- Lane 64·h + j of the 128: centre j's lane in half h. -/
def lane (h : Fin 2) (j : Fin 64) : Fin 128 := ⟨64 * h.val + j.val, by have := h.isLt; have := j.isLt; omega⟩

theorem lane_val (h : Fin 2) (j : Fin 64) : (lane h j).val = 64 * h.val + j.val := rfl

theorem zero_offsets : (![0, 0] : Fin 2 → Nat) = fun _ => 0 := funext fun a => by fin_cases a <;> rfl

/-! ## The two output blocks are the body's two stored values -/

theorem assignBlock_eq (x0 : Vec Ideal S1024x2 .f32) (x1 : Vec Ideal S1x128 .f32) : out0_2 x0 x1 = k0_pay10 x0 x1 := by
  unfold out0_2
  rw [View.canon_unit_zero zero_offsets]
  simp only [View.ld_unit_zero (S := S1024x2) zero_offsets, View.ld_unit_zero (S := S1x128) zero_offsets]

theorem quantBlock_eq (x0 : Vec Ideal S1024x2 .f32) (x1 : Vec Ideal S1x128 .f32) :
    out0_3 x0 x1 = k0_pay1 (k0_pay6 x0 x1) (k0_pay7 x0 x1) (k0_pay8 x0 x1) (k0_pay9 x0 x1) := by
  unfold out0_3
  rw [View.canon_unit_zero zero_offsets]
  simp only [View.ld_unit_zero (S := S1024x2) zero_offsets, View.ld_unit_zero (S := S1x128) zero_offsets]

/-! ## The lane mask -/

/-- Signed "less than 64" of a lane number below 128, as a one-bit word. -/
theorem mask_word : ∀ l : Fin 128, IntOp.cmpi .slt (BitVec.ofNat 32 l.val) 64#32 = if l.val < 64 then 1#1 else 0#1 := by
  decide +kernel

/-- The mask at lane l is "l < 64". -/
theorem mask_at (r : Fin 1024) (l : Fin 128) : k0_pay3 (ix2 r l) = if l.val < 64 then 1#1 else 0#1 := by
  unfold k0_pay3
  show IntOp.cmpi .slt (iota .tc S1024x128 32 [1] iota_S1024x128_d1_w32 (ix2 r l)) (broadcast S1024x128 64#32 (ix2 r l)) = _
  rw [iota_single_apply]
  exact mask_word l

/-! ## Entrywise operations and layout operations at an entry -/

theorem exp_at {s : Shape} (a : FVec Ideal s .f32) (i : s.Idx) : exp a i = Ideal.exp (a i) := rfl
theorem absf_at {s : Shape} (a : FVec Ideal s .f32) (i : s.Idx) : absf a i = max (a i) (-(a i)) := rfl

/-- Column c of a two-column block, cut out as a one-column slice and spread along the lanes, reads at any lane the
    column's entry of the row. -/
theorem colSpread_at (x : S1024x2.Idx → EReal) (o : Nat) (c : Fin 2) (hoc : c.val = o)
    (hc : S1024x2.ShapeCasts S1024x2) (hs : S1024x2.Slices ![0, o] S1024x1) (hc1 : S1024x1.ShapeCasts S1024x1)
    (hb : S1024x1.Broadcasts S1024x128) (r : Fin 1024) (l : Fin 128) :
    broadcastTo S1024x128 (shapeCast S1024x1 (extractStridedSlice S1024x1 ![0, o] (shapeCast S1024x2 x hc) hs) hc1) hb (ix2 r l)
      = x (ix2 r c) := by
  rw [Cert.Attn.Layout.broadcastTo_a1_ab_apply, shapeCast_self, shapeCast_self]
  exact slice2_axis1_apply o x hs r (0 : Fin 1) c (by rw [hoc]; rfl)

/-- The one row of centres spread over the rows reads, at any row, the lane's centre. -/
theorem rowSpread_at (x1 : S1x128.Idx → EReal) (hb : S1x128.Broadcasts S1024x128) (r : Fin 1024) (l : Fin 128) :
    broadcastTo S1024x128 (k0_pay2 (F := Ideal) x1) hb (ix2 r l) = x1 (ix2 (0 : Fin 1) l) := by
  unfold k0_pay2
  rw [shapeCast_self]
  refine broadcastTo_apply x1 hb (ix2 r l) (ix2 (0 : Fin 1) l) fun a => ?_
  match a with
  | ⟨0, _⟩ => rfl
  | ⟨1, _⟩ => rfl

/-- A one-column array spread along the lanes reads the column's entry of the row. -/
theorem column_at (v : S1024x1.Idx → EReal) (hc1 : S1024x1.ShapeCasts S1024x1) (hb : S1024x1.Broadcasts S1024x128)
    (r : Fin 1024) (l : Fin 128) :
    broadcastTo S1024x128 (shapeCast S1024x1 v hc1) hb (ix2 r l) = v (ix2 r (0 : Fin 1)) := by
  rw [Cert.Attn.Layout.broadcastTo_a1_ab_apply, shapeCast_self]

/-- The sum over the 64 lanes of half h of row r, as the body takes it: a slice of 64 lanes from lane 64·h, summed along
    the lanes, the 1024 sums then set as one column. -/
theorem halfSum_at (v : FVec Ideal S1024x128 .f32) (o : Nat) (h : Fin 2) (ho : o = 64 * h.val)
    (hs : S1024x128.Slices ![0, o] S1024x64) (hr : S1024x64.Reduces [1] S1024) (hφ : FKind.Formats .f32)
    (hacc : (0x00000000#32 : BitVec 32) = FKind.add.neutral .f32 hφ) (hc : S1024.ShapeCasts S1024x1) (r : Fin 1024) (u : Fin 1) :
    shapeCast S1024x1 (multiReduction .add [1] S1024 (extractStridedSlice S1024x64 ![0, o] v hs) 0x00000000#32 hr hφ hacc) hc (ix2 r u)
      = ∑ j : Fin 64, v (ix2 r (lane h j)) := by
  rw [Cert.Attn.Layout.shapeCast_a_a1_apply]
  refine (Cert.Attn.Layout.rowSum_apply _ hr hφ hacc r).trans ?_
  exact Finset.sum_congr rfl fun j _ => slice2_axis1_apply o v hs r j (lane h j) (by rw [ho]; rfl)

/-! ## The weights -/

/-- The weight at row r and lane l: the lane's centre against the row's first element below lane 64, its second from
    lane 64 on. -/
theorem weight_lane (x0 : S1024x2.Idx → EReal) (x1 : S1x128.Idx → EReal) (r : Fin 1024) (l : Fin 128) :
    k0_pay4 (F := Ideal) x0 x1 (ix2 r l)
      = weight (if l.val < 64 then x0 (ix2 r (0 : Fin 2)) else x0 (ix2 r (1 : Fin 2))) (x1 (ix2 (0 : Fin 1) l)) := by
  unfold k0_pay4
  rw [exp_at, subf_apply, absf_at, subf_apply, select_apply, broadcast_apply, mask_at,
    colSpread_at x0 0 0 rfl, colSpread_at x0 1 1 rfl, rowSpread_at]
  unfold weight Cert.SoftQuant.dist
  by_cases hl : l.val < 64
  · rw [if_pos hl, if_pos hl, select_one]; rfl
  · rw [if_neg hl, if_neg hl, select_zero]; rfl

/-- The weight at row r and lane 64·h + j is the weight of centre j for the row's element h. -/
theorem weight_at (x0 : S1024x2.Idx → EReal) (x1 : S1x128.Idx → EReal) (r : Fin 1024) (h : Fin 2) (j : Fin 64) :
    k0_pay4 (F := Ideal) x0 x1 (ix2 r (lane h j)) = weight (x0 (ix2 r h)) (x1 (ix2 (0 : Fin 1) (lane h j))) := by
  rw [weight_lane]
  have hj := j.isLt
  match h with
  | ⟨0, _⟩ => rw [if_pos (by rw [lane_val]; show 64 * 0 + j.val < 64; omega)]; rfl
  | ⟨1, _⟩ => rw [if_neg (by rw [lane_val]; show ¬ 64 * 1 + j.val < 64; omega)]; rfl

/-- The weight times the lane's centre. -/
theorem weighted_at (x0 : S1024x2.Idx → EReal) (x1 : S1x128.Idx → EReal) (r : Fin 1024) (h : Fin 2) (j : Fin 64) :
    k0_pay5 (F := Ideal) x0 x1 (ix2 r (lane h j))
      = weight (x0 (ix2 r h)) (x1 (ix2 (0 : Fin 1) (lane h j))) * x1 (ix2 (0 : Fin 1) (lane h j)) := by
  unfold k0_pay5
  rw [mulf_apply, weight_at, rowSpread_at]

/-! ## The reciprocals of the two half totals, and the two numerators -/

/-- One over the total weight of the first half's lanes: the reciprocal total for the row's first element. -/
theorem recip0_at (x0 : S1024x2.Idx → EReal) (x1 : S1x128.Idx → EReal) (r : Fin 1024) (u : Fin 1) :
    k0_pay8 (F := Ideal) x0 x1 (ix2 r u)
      = recipTotal (x0 (ix2 r (0 : Fin 2))) (fun j : Fin 64 => x1 (ix2 (0 : Fin 1) (lane 0 j))) := by
  unfold k0_pay8 recipTotal
  rw [divf_apply, broadcast_apply]
  refine congrArg (Ideal.div _) ?_
  refine (halfSum_at (k0_pay4 x0 x1) 0 0 rfl _ _ _ _ _ r u).trans ?_
  exact Finset.sum_congr rfl fun j _ => weight_at x0 x1 r 0 j

/-- The same for the second half's lanes and the row's second element. -/
theorem recip1_at (x0 : S1024x2.Idx → EReal) (x1 : S1x128.Idx → EReal) (r : Fin 1024) (u : Fin 1) :
    k0_pay9 (F := Ideal) x0 x1 (ix2 r u)
      = recipTotal (x0 (ix2 r (1 : Fin 2))) (fun j : Fin 64 => x1 (ix2 (0 : Fin 1) (lane 1 j))) := by
  unfold k0_pay9 recipTotal
  rw [divf_apply, broadcast_apply]
  refine congrArg (Ideal.div _) ?_
  refine (halfSum_at (k0_pay4 x0 x1) 64 1 rfl _ _ _ _ _ r u).trans ?_
  exact Finset.sum_congr rfl fun j _ => weight_at x0 x1 r 1 j

/-- The first half's sum of weight times centre. -/
theorem numer0_at (x0 : S1024x2.Idx → EReal) (x1 : S1x128.Idx → EReal) (r : Fin 1024) (u : Fin 1) :
    k0_pay6 (F := Ideal) x0 x1 (ix2 r u)
      = ∑ j : Fin 64, weight (x0 (ix2 r (0 : Fin 2))) (x1 (ix2 (0 : Fin 1) (lane 0 j))) * x1 (ix2 (0 : Fin 1) (lane 0 j)) := by
  unfold k0_pay6
  refine (halfSum_at (k0_pay5 x0 x1) 0 0 rfl _ _ _ _ _ r u).trans ?_
  exact Finset.sum_congr rfl fun j _ => weighted_at x0 x1 r 0 j

/-- The second half's. -/
theorem numer1_at (x0 : S1024x2.Idx → EReal) (x1 : S1x128.Idx → EReal) (r : Fin 1024) (u : Fin 1) :
    k0_pay7 (F := Ideal) x0 x1 (ix2 r u)
      = ∑ j : Fin 64, weight (x0 (ix2 r (1 : Fin 2))) (x1 (ix2 (0 : Fin 1) (lane 1 j))) * x1 (ix2 (0 : Fin 1) (lane 1 j)) := by
  unfold k0_pay7
  refine (halfSum_at (k0_pay5 x0 x1) 64 1 rfl _ _ _ _ _ r u).trans ?_
  exact Finset.sum_congr rfl fun j _ => weighted_at x0 x1 r 1 j

/-! ## The two output blocks at an entry -/

/-- The assignment block at row r and lane 64·h + k: the direct arrangement's assignment of the row's element h to
    centre k, the centres read off the lanes of half h. -/
theorem assign_at (x0 : Vec Ideal S1024x2 .f32) (x1 : Vec Ideal S1x128 .f32) (r : Fin 1024) (h : Fin 2) (k : Fin 64) :
    out0_2 x0 x1 (ix2 r (lane h k))
      = assignDirect (x0 (ix2 r h)) (fun j : Fin 64 => x1 (ix2 (0 : Fin 1) (lane h j))) k := by
  rw [assignBlock_eq]
  unfold k0_pay10 assignDirect
  rw [mulf_apply, select_apply, mask_at, column_at, column_at, weight_at]
  have hk := k.isLt
  match h with
  | ⟨0, _⟩ =>
    rw [if_pos (by rw [lane_val]; show 64 * 0 + k.val < 64; omega), select_one, recip0_at]; rfl
  | ⟨1, _⟩ =>
    rw [if_neg (by rw [lane_val]; show ¬ 64 * 1 + k.val < 64; omega), select_zero, recip1_at]; rfl

/-- The quantised block at row r and column h: the direct arrangement's quantised value of the row's element h. -/
theorem quant_at (x0 : Vec Ideal S1024x2 .f32) (x1 : Vec Ideal S1x128 .f32) (r : Fin 1024) (h : Fin 2) :
    out0_3 x0 x1 (ix2 r h)
      = quantDirect (x0 (ix2 r h)) (fun j : Fin 64 => x1 (ix2 (0 : Fin 1) (lane h j))) := by
  rw [quantBlock_eq]
  unfold k0_pay1 quantDirect
  match h with
  | ⟨0, _⟩ =>
    refine (concatenate_pair_apply_left (t := S1024x2) (s₁ := S1024x1) (s₂ := S1024x1) (1 : Fin 2) _ _ _ (ix2 r (⟨0, by omega⟩ : Fin 2)) rfl (ix2 r (0 : Fin 1)) (fun b => ?_)).trans ?_
    · match b with
      | ⟨0, _⟩ => rfl
      | ⟨1, _⟩ => rfl
    · rw [mulf_apply, numer0_at, recip0_at]; rfl
  | ⟨1, _⟩ =>
    refine (concatenate_pair_apply_right (t := S1024x2) (s₁ := S1024x1) (s₂ := S1024x1) (1 : Fin 2) _ _ _ (ix2 r (⟨1, by omega⟩ : Fin 2)) rfl rfl (ix2 r (0 : Fin 1)) (fun b hb => ?_) rfl).trans ?_
    · match b with
      | ⟨0, _⟩ => rfl
      | ⟨1, _⟩ => exact absurd rfl hb
    · rw [mulf_apply, numer1_at, recip1_at]; rfl

end Cert.KernelIdeal.Row

end
-- ==== Proof.KernelBlocks.lean ====
/-
  What the region finds in its two input arrays, and what an input block holds.

  Before the region the host reshapes x, row-major, into 442368 rows of two consecutive elements, and sets the 64
  centres twice in a row of 128 lanes.  So row R, column h of the first array is element 2·R + h of x flattened, and
  lane 64·h + j of the one-row second array is centre j, for either half h.

  Grid point t's block of the first array is its rows 1024·t … 1024·t + 1023; every point's block of the second is
  the whole row.
-/
import proofs.«148553_g82265803587872_cont_9to1_m_387_2_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- Row 1024·t + r of the 442368: row r of grid point t's block. -/
def rowOf (t : Fin cfg0.N) (r : Fin 1024) : Fin 442368 :=
  ⟨t.val * 1024 + r.val, by have := Nat.lt_of_lt_of_eq t.isLt N_0; have := r.isLt; omega⟩

/-! ## The arrays as the region finds them -/

/-- The first input array: x reshaped into rows of two. -/
theorem rows_eq (c : Dev nD) :
    (V m c main_call0_v0 : S442368x2.Idx → EReal)
      = shapeCast S442368x2 (m ((c : Thread nD τ).loc main_arg0)) shapeCasts_S16x576x96_S442368x2 := by
  show StableHlo.after hostOps0 (fun b => m (c, b)) (Proc.devRef .tc main_call0_v0) = _
  after_results
  rfl

/-- The second input array: the centres twice, as one row. -/
theorem centres_eq (c : Dev nD) :
    (V m c main_call0_v2 : S1x128.Idx → EReal)
      = shapeCast S1x128 (concatenate S128 0 [⟨S64, m ((c : Thread nD τ).loc main_arg1)⟩, ⟨S64, m ((c : Thread nD τ).loc main_arg1)⟩]
          concatenates_S64_S64_S128_d0) shapeCasts_S128_S1x128 := by
  show StableHlo.after hostOps0 (fun b => m (c, b)) (Proc.devRef .tc main_call0_v2) = _
  after_results
  rfl

/-- Row R, column h of the first array is the element of x whose row-major position is 2·R + h. -/
theorem rows_at (c : Dev nD) (R : Fin 442368) (h : Fin 2) (i : S16x576x96.Idx)
    (hi : ((i 0).val * 576 + (i 1).val) * 96 + (i 2).val = R.val * 2 + h.val) :
    V m c main_call0_v0 (ix2 R h) = m ((c : Thread nD τ).loc main_arg0) i := by
  rw [rows_eq]
  exact shapeCast_apply _ shapeCasts_S16x576x96_S442368x2 (ix2 R h) i (by
    rw [Shape.rowMajor_val_three, Shape.rowMajor_val_two]; exact hi)

/-- Lane 64·h + j of the second array is centre j. -/
theorem centres_at (c : Dev nD) (h : Fin 2) (j : Fin 64) (l : Fin 128) (hl : l.val = 64 * h.val + j.val) :
    V m c main_call0_v2 (ix2 (0 : Fin 1) l) = m ((c : Thread nD τ).loc main_arg1) (ix1 j) := by
  rw [centres_eq]
  refine (shapeCast_apply _ shapeCasts_S128_S1x128 (ix2 (0 : Fin 1) l) (ix1 l) (by
    rw [Shape.rowMajor_val_one, Shape.rowMajor_val_two]; show l.val = 0 * 128 + l.val; omega)).trans ?_
  have hj := j.isLt
  have hh := h.isLt
  by_cases h0 : h.val = 0
  · refine concatenate_pair_apply_left (t := S128) (s₁ := S64) (s₂ := S64) (0 : Fin 1) _ _ _ (ix1 l) rfl (ix1 j) (fun b => ?_)
    match b with
    | ⟨0, _⟩ => show j.val = l.val; omega
  · refine concatenate_pair_apply_right (t := S128) (s₁ := S64) (s₂ := S64) (0 : Fin 1) _ _ _ (ix1 l) rfl rfl (ix1 j) (fun b hb => ?_) ?_
    · match b with
      | ⟨0, _⟩ => exact absurd rfl hb
    · show j.val + 64 = l.val; omega

/-! ## The input blocks -/

/-- The windows' block indices at a grid point, decided over the grid: the first input and both outputs step one
    block of rows per point; the centres' row stays. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row r, column h of point t's block of the first array is row 1024·t + r, column h of the array. -/
theorem rowsBlock_at (c : Dev nD) (t : Fin cfg0.N) (r : Fin 1024) (h : Fin 2) :
    iblk m c 0 t (ix2 r h) = V m c main_call0_v0 (ix2 (rowOf t r) h) := by
  obtain ⟨e0, e1, -⟩ := index_facts t
  show V m c main_call0_v0 (((cfg0.win 0).blk t).view.emb (ix2 r h)) = _
  refine congrArg (V m c main_call0_v0) (funext fun a => Fin.ext ?_)
  match a with
  | ⟨0, _⟩ => show win0_0.index t (0 : Fin 2) * 1024 + 1 * r.val = t.val * 1024 + r.val; rw [e0]; omega
  | ⟨1, _⟩ => show win0_0.index t (1 : Fin 2) * 2 + 1 * h.val = h.val; rw [e1]; omega

/-- Lane l of any point's block of the second array is lane l of the array. -/
theorem centresBlock_at (c : Dev nD) (t : Fin cfg0.N) (l : Fin 128) :
    iblk m c 1 t (ix2 (0 : Fin 1) l) = V m c main_call0_v2 (ix2 (0 : Fin 1) l) := by
  obtain ⟨-, -, e0, e1, -⟩ := index_facts t
  show V m c main_call0_v2 (((cfg0.win 1).blk t).view.emb (ix2 (0 : Fin 1) l)) = _
  refine congrArg (V m c main_call0_v2) (funext fun a => Fin.ext ?_)
  match a with
  | ⟨0, _⟩ => show win0_1.index t (0 : Fin 2) * 1 + 1 * 0 = 0; rw [e0]
  | ⟨1, _⟩ => show win0_1.index t (1 : Fin 2) * 128 + 1 * l.val = l.val; rw [e1]; omega

end Cert.KernelIdeal.Blocks

end
-- ==== Proof.KernelArrays.lean ====
/-
  The two output arrays after the run, each as one function of x and the centres.

  Row R of the assignment array ([442368, 128]) belongs to elements 2·R and 2·R + 1 of x flattened row-major: lane
  64·h + k holds the direct arrangement's assignment of element 2·R + h to centre k.  Row R, column h of the quantised
  array ([442368, 2]) holds the direct arrangement's quantised value of element 2·R + h.

  Grid point t writes rows 1024·t … 1024·t + 1023 of both arrays, from its block of 1024 rows of x (two elements a
  row) and the row of centres; what it writes is the restriction of the two functions above to those rows, because the
  body works row by row.  The 432 points' blocks cover all 442368 rows: row R is in the block of point R / 1024.
-/
import proofs.«148553_g82265803587872_cont_9to1_m_387_2_alg».proof.Proof.KernelRow
import proofs.«148553_g82265803587872_cont_9to1_m_387_2_alg».proof.Proof.KernelBlocks

noncomputable section

namespace Cert.KernelIdeal.Arrays

open Cert.KernelIdeal Cert.KernelIdeal.Gen Idealize.ShloMosaic Idealize.ShloMosaic.TcCoe Idealize.ShloMosaic.ValueIdx
open Idealize.SL.Sem Cert.SoftQuant Cert.KernelIdeal.Row Cert.KernelIdeal.Blocks
open Idealize.ShloMosaic.Pipeline (Dat)

variable (m : (ℓ : Loc nD τ sig) → Buf (Elt Ideal) ℓ)

/-- The index of x whose row-major position is n. -/
def unflat (n : Fin 884736) : S16x576x96.Idx :=
  ix3 (⟨n.val / 55296, by have := n.isLt; omega⟩ : Fin 16) (⟨n.val / 96 % 576, by have := n.isLt; omega⟩ : Fin 576)
    (⟨n.val % 96, by have := n.isLt; omega⟩ : Fin 96)

theorem unflat_pos (n : Fin 884736) :
    (((unflat n) 0).val * 576 + ((unflat n) 1).val) * 96 + ((unflat n) 2).val = n.val := by
  show (n.val / 55296 * 576 + n.val / 96 % 576) * 96 + n.val % 96 = n.val
  have := n.isLt
  omega

/-- The assignment array: at row R and lane l, element 2·R + l / 64 against centre l mod 64. -/
def assignArr (x0 : S16x576x96.Idx → EReal) (x1 : S64.Idx → EReal) : S442368x128.Idx → EReal := fun i =>
  assignDirect (x0 (unflat ⟨2 * (i 0).val + (i 1).val / 64, by have := idx2_lt0 i; have := idx2_lt1 i; omega⟩))
    (fun j : Fin 64 => x1 (ix1 j)) ⟨(i 1).val % 64, Nat.mod_lt _ (by decide)⟩

/-- The quantised array: at row R and column h, element 2·R + h. -/
def quantArr (x0 : S16x576x96.Idx → EReal) (x1 : S64.Idx → EReal) : S442368x2.Idx → EReal := fun i =>
  quantDirect (x0 (unflat ⟨2 * (i 0).val + (i 1).val, by have := idx2_lt0 i; have := idx2_lt1 i; omega⟩))
    (fun j : Fin 64 => x1 (ix1 j))

/-! ## What a block of rows reads -/

/-- Row r, column h of point t's block of x-in-rows-of-two is element 2·(1024·t + r) + h of x. -/
theorem element_at (c : Dev nD) (t : Fin cfg0.N) (r : Fin 1024) (h : Fin 2) (n : Fin 884736)
    (hn : n.val = (rowOf t r).val * 2 + h.val) :
    iblk m c 0 t (ix2 r h) = m ((c : Thread nD τ).loc main_arg0) (unflat n) := by
  rw [rowsBlock_at]
  exact rows_at m c (rowOf t r) h (unflat n) ((unflat_pos n).trans hn)

/-- Lane 64·h + j of any point's block of the centres' row is centre j. -/
theorem centre_at (c : Dev nD) (t : Fin cfg0.N) (h : Fin 2) (j : Fin 64) :
    iblk m c 1 t (ix2 (0 : Fin 1) (Row.lane h j)) = m ((c : Thread nD τ).loc main_arg1) (ix1 j) := by
  rw [centresBlock_at]
  exact centres_at m c h j (Row.lane h j) (Row.lane_val h j)

/-! ## What a grid point writes is its rows of the two functions -/

theorem assign_rows (c : Dev nD) (t : Fin cfg0.N) (r : Fin 1024) (l : Fin 128) :
    out0_2 (iblk m c 0 t) (iblk m c 1 t) (ix2 r l)
      = assignArr (m ((c : Thread nD τ).loc main_arg0)) (m ((c : Thread nD τ).loc main_arg1)) (ix2 (rowOf t r) l) := by
  have hl := l.isLt
  obtain ⟨h, k, rfl⟩ : ∃ (h : Fin 2) (k : Fin 64), l = Row.lane h k :=
    ⟨⟨l.val / 64, by omega⟩, ⟨l.val % 64, by omega⟩, Fin.ext (by show l.val = 64 * (l.val / 64) + l.val % 64; omega)⟩
  refine (assign_at (iblk m c 0 t) (iblk m c 1 t) r h k).trans ?_
  have hh := h.isLt
  have hk := k.isLt
  have hR := (rowOf t r).isLt
  have e1 := element_at m c t r h ⟨2 * (rowOf t r).val + (Row.lane h k).val / 64, by rw [Row.lane_val]; omega⟩
    (by show 2 * (rowOf t r).val + (Row.lane h k).val / 64 = (rowOf t r).val * 2 + h.val; rw [Row.lane_val]; omega)
  have e2 : (fun j : Fin 64 => iblk m c 1 t (ix2 (0 : Fin 1) (Row.lane h j)))
      = fun j : Fin 64 => m ((c : Thread nD τ).loc main_arg1) (ix1 j) := funext fun j => centre_at m c t h j
  have e3 : k = (⟨(Row.lane h k).val % 64, Nat.mod_lt _ (by decide)⟩ : Fin 64) :=
    Fin.ext (by show k.val = (Row.lane h k).val % 64; rw [Row.lane_val]; omega)
  exact congr (congr (congrArg assignDirect e1) e2) e3

theorem quant_rows (c : Dev nD) (t : Fin cfg0.N) (r : Fin 1024) (h : Fin 2) :
    out0_3 (iblk m c 0 t) (iblk m c 1 t) (ix2 r h)
      = quantArr (m ((c : Thread nD τ).loc main_arg0)) (m ((c : Thread nD τ).loc main_arg1)) (ix2 (rowOf t r) h) := by
  refine (quant_at (iblk m c 0 t) (iblk m c 1 t) r h).trans ?_
  have hh := h.isLt
  have hR := (rowOf t r).isLt
  have e1 := element_at m c t r h ⟨2 * (rowOf t r).val + h.val, by omega⟩
    (by show 2 * (rowOf t r).val + h.val = (rowOf t r).val * 2 + h.val; omega)
  have e2 : (fun j : Fin 64 => iblk m c 1 t (ix2 (0 : Fin 1) (Row.lane h j)))
      = fun j : Fin 64 => m ((c : Thread nD τ).loc main_arg1) (ix1 j) := funext fun j => centre_at m c t h j
  exact congr (congrArg quantDirect e1) e2

/-! ## Where a block's entry sits in its array -/

theorem assign_emb (t : Fin cfg0.N) (r : Fin 1024) (l : Fin 128) :
    ((cfg0.win 2).blk t).view.emb (ix2 r l) = ix2 (rowOf t r) l := by
  obtain ⟨-, -, -, -, e0, e1, -⟩ := index_facts t
  funext a; apply Fin.ext
  match a with
  | ⟨0, _⟩ => show win0_2.index t (0 : Fin 2) * 1024 + 1 * r.val = t.val * 1024 + r.val; rw [e0]; omega
  | ⟨1, _⟩ => show win0_2.index t (1 : Fin 2) * 128 + 1 * l.val = l.val; rw [e1]; omega

theorem quant_emb (t : Fin cfg0.N) (r : Fin 1024) (h : Fin 2) :
    ((cfg0.win 3).blk t).view.emb (ix2 r h) = ix2 (rowOf t r) h := by
  obtain ⟨-, -, -, -, -, -, e0, e1⟩ := index_facts t
  funext a; apply Fin.ext
  match a with
  | ⟨0, _⟩ => show win0_3.index t (0 : Fin 2) * 1024 + 1 * r.val = t.val * 1024 + r.val; rw [e0]; omega
  | ⟨1, _⟩ => show win0_3.index t (1 : Fin 2) * 2 + 1 * h.val = h.val; rw [e1]; omega

/-- What point t writes back to the assignment array is block t of `assignArr`. -/
theorem assign_flushed (c : Dev nD) (t : Fin cfg0.N) :
    (dats m 0 c).flushed 2 t = ((cfg0.win 2).blk t).view.read (Elt Ideal)
      (assignArr (m ((c : Thread nD τ).loc main_arg0)) (m ((c : Thread nD τ).loc main_arg1))) := by
  show (cfg0.win 2).cut (grid0.coords t) ((dats m 0 c).after 2 t) = _
  rw [after0_2]
  funext y
  obtain ⟨r, l, rfl⟩ : ∃ (r : Fin 1024) (l : Fin 128), y = ix2 r l := ⟨y 0, y 1, eq_ix2 y⟩
  show out0_2 (iblk m c 0 t) (iblk m c 1 t) (ix2 r l)
    = assignArr (m ((c : Thread nD τ).loc main_arg0)) (m ((c : Thread nD τ).loc main_arg1)) (((cfg0.win 2).blk t).view.emb (ix2 r l))
  rw [assign_emb]
  exact assign_rows m c t r l

/-- What point t writes back to the quantised array is block t of `quantArr`. -/
theorem quant_flushed (c : Dev nD) (t : Fin cfg0.N) :
    (dats m 0 c).flushed 3 t = ((cfg0.win 3).blk t).view.read (Elt Ideal)
      (quantArr (m ((c : Thread nD τ).loc main_arg0)) (m ((c : Thread nD τ).loc main_arg1))) := by
  show (cfg0.win 3).cut (grid0.coords t) ((dats m 0 c).after 3 t) = _
  rw [after0_3]
  funext y
  obtain ⟨r, h, rfl⟩ : ∃ (r : Fin 1024) (h : Fin 2), y = ix2 r h := ⟨y 0, y 1, eq_ix2 y⟩
  show out0_3 (iblk m c 0 t) (iblk m c 1 t) (ix2 r h)
    = quantArr (m ((c : Thread nD τ).loc main_arg0)) (m ((c : Thread nD τ).loc main_arg1)) (((cfg0.win 3).blk t).view.emb (ix2 r h))
  rw [quant_emb]
  exact quant_rows m c t r h

/-! ## The blocks cover the arrays -/

theorem assign_mem (t : Fin cfg0.N) (i : S442368x128.Idx) :
    i ∈ ((cfg0.win 2).blk t).view.set ↔ ∀ a : Fin 2, win0_2.index t a * S1024x128.size a ≤ (i a).val
      ∧ (i a).val < win0_2.index t a * S1024x128.size a + S1024x128.size a := by
  show i ∈ ((View.whole main_call0_v3_0).slice (win0_2.rect t)).set ↔ _
  rw [View.set_slice_whole, Rect.mem_set_unit]
  exact Iff.rfl

theorem quant_mem (t : Fin cfg0.N) (i : S442368x2.Idx) :
    i ∈ ((cfg0.win 3).blk t).view.set ↔ ∀ a : Fin 2, win0_3.index t a * S1024x2.size a ≤ (i a).val
      ∧ (i a).val < win0_3.index t a * S1024x2.size a + S1024x2.size a := by
  show i ∈ ((View.whole main_call0_v3_1).slice (win0_3.rect t)).set ↔ _
  rw [View.set_slice_whole, Rect.mem_set_unit]
  exact Iff.rfl

/-- The point whose block holds row R: R / 1024. -/
theorem point_of_row (R : Nat) (hR : R < 442368) : ∃ t : Fin cfg0.N, t.val = R / 1024 :=
  ⟨⟨R / 1024, Nat.lt_of_lt_of_eq (by omega : R / 1024 < 432) N_0.symm⟩, rfl⟩

theorem assign_cover (i : S442368x128.Idx) :
    ∃ t : Fin cfg0.N, (cfg0.win 2).flush t = true ∧ i ∈ ((cfg0.win 2).blk t).view.set := by
  have h0 := idx2_lt0 i
  have h1 := idx2_lt1 i
  obtain ⟨t, ht⟩ := point_of_row (i 0).val h0
  obtain ⟨-, -, -, -, e0, e1, -⟩ := index_facts t
  refine ⟨t, flush0_2 t, ?_⟩
  rw [assign_mem]
  intro a
  match a with
  | ⟨0, _⟩ =>
    show win0_2.index t (0 : Fin 2) * 1024 ≤ (i 0).val ∧ (i 0).val < win0_2.index t (0 : Fin 2) * 1024 + 1024
    rw [e0, ht]; omega
  | ⟨1, _⟩ =>
    show win0_2.index t (1 : Fin 2) * 128 ≤ (i 1).val ∧ (i 1).val < win0_2.index t (1 : Fin 2) * 128 + 128
    rw [e1]; omega

theorem quant_cover (i : S442368x2.Idx) :
    ∃ t : Fin cfg0.N, (cfg0.win 3).flush t = true ∧ i ∈ ((cfg0.win 3).blk t).view.set := by
  have h0 := idx2_lt0 i
  have h1 := idx2_lt1 i
  obtain ⟨t, ht⟩ := point_of_row (i 0).val h0
  obtain ⟨-, -, -, -, -, -, e0, e1⟩ := index_facts t
  refine ⟨t, flush0_3 t, ?_⟩
  rw [quant_mem]
  intro a
  match a with
  | ⟨0, _⟩ =>
    show win0_3.index t (0 : Fin 2) * 1024 ≤ (i 0).val ∧ (i 0).val < win0_3.index t (0 : Fin 2) * 1024 + 1024
    rw [e0, ht]; omega
  | ⟨1, _⟩ =>
    show win0_3.index t (1 : Fin 2) * 2 ≤ (i 1).val ∧ (i 1).val < win0_3.index t (1 : Fin 2) * 2 + 2
    rw [e1]; omega

/-! ## The arrays after the run -/

theorem assign_final (c : Dev nD) :
    (dats m 0 c).arrAt 2 cfg0.N = assignArr (m ((c : Thread nD τ).loc main_arg0)) (m ((c : Thread nD τ).loc main_arg1)) :=
  (dats m 0 c).arrAt_eq_of_cover 2 _ (fun t _ => assign_flushed m c t) assign_cover

theorem quant_final (c : Dev nD) :
    (dats m 0 c).arrAt 3 cfg0.N = quantArr (m ((c : Thread nD τ).loc main_arg0)) (m ((c : Thread nD τ).loc main_arg1)) :=
  (dats m 0 c).arrAt_eq_of_cover 3 _ (fun t _ => quant_flushed m c t) quant_cover

end Cert.KernelIdeal.Arrays

end
-- ==== Proof.KernelRun.lean ====
/-
  The kernel program's run, read: its two results as functions of x and the centres.

  After the region the host reshapes the quantised array [442368, 2] to x's shape and the assignment array
  [442368, 128] to x's shape with a trailing axis of 64.  Both reshapes keep row-major positions, so the quantised
  result at an index of x is the direct arrangement's quantised value of that element, and the assignment result at
  (an index of x, k) is its assignment to centre k: with n the element's row-major position, row n / 2 and column
  n mod 2 of the quantised array hold element n, and lane 64·(n mod 2) + k of row n / 2 of the assignment array holds
  element n against centre k.
-/
import proofs.«148553_g82265803587872_cont_9to1_m_387_2_alg».proof.Proof.KernelArrays
import Idealize.ShloMosaic.Lib.StableHlo.Run

noncomputable section

namespace Cert.KernelIdeal.Run

open Cert.KernelIdeal Cert.KernelIdeal.Gen Idealize.ShloMosaic Idealize.ShloMosaic.TcCoe Idealize.ShloMosaic.ValueIdx
open Idealize.SL.Sem Idealize.ShloMosaic.StableHlo Cert.SoftQuant Cert.KernelIdeal.Arrays

variable (m : (ℓ : Loc nD τ sig) → Buf (Elt Ideal) ℓ) (ρ : Dev nD → PrngReg)

/-! ## The host's two reshapes after the region -/

/-- The quantised array as the host's tail finds it. -/
theorem quant_left (c : Dev nD) :
    Pipeline.withArrays (cfgs 0).spec c (V0 m c) (fun w => (dats m 0 c).arrAt w (cfgs 0).N) (Proc.devRef .tc main_call0_v3_1)
      = quantArr (m ((c : Thread nD τ).loc main_arg0)) (m ((c : Thread nD τ).loc main_arg1)) :=
  (Pipeline.withArrays_arr spec0 launch0.win.arr_inj c _ _ 3).trans (quant_final m c)

/-- The assignment array as the host's tail finds it. -/
theorem assign_left (c : Dev nD) :
    Pipeline.withArrays (cfgs 0).spec c (V0 m c) (fun w => (dats m 0 c).arrAt w (cfgs 0).N) (Proc.devRef .tc main_call0_v3_0)
      = assignArr (m ((c : Thread nD τ).loc main_arg0)) (m ((c : Thread nD τ).loc main_arg1)) :=
  (Pipeline.withArrays_arr spec0 launch0.win.arr_inj c _ _ 2).trans (assign_final m c)

theorem tail_quant (c : Dev nD) :
    Pipeline.afterTail₀ cfgs (dats m) 0 (V0 m) [hostOps1] c main_v0_0
      = shapeCast S16x576x96 (quantArr (m ((c : Thread nD τ).loc main_arg0)) (m ((c : Thread nD τ).loc main_arg1)))
          shapeCasts_S442368x2_S16x576x96 := by
  unfold Pipeline.afterTail₀
  show StableHlo.after hostOps1 _ (Proc.devRef .tc main_v0_0) = _
  after_results
  funext i
  show shapeCast S16x576x96 (Pipeline.withArrays (cfgs 0).spec c (V0 m c) (fun w => (dats m 0 c).arrAt w (cfgs 0).N)
    (Proc.devRef .tc main_call0_v3_1)) shapeCasts_S442368x2_S16x576x96 i = _
  rw [quant_left]

theorem tail_assign (c : Dev nD) :
    Pipeline.afterTail₀ cfgs (dats m) 0 (V0 m) [hostOps1] c main_v0_1
      = shapeCast S16x576x96x64 (assignArr (m ((c : Thread nD τ).loc main_arg0)) (m ((c : Thread nD τ).loc main_arg1)))
          shapeCasts_S442368x128_S16x576x96x64 := by
  unfold Pipeline.afterTail₀
  show StableHlo.after hostOps1 _ (Proc.devRef .tc main_v0_1) = _
  after_results
  funext i
  show shapeCast S16x576x96x64 (Pipeline.withArrays (cfgs 0).spec c (V0 m c) (fun w => (dats m 0 c).arrAt w (cfgs 0).N)
    (Proc.devRef .tc main_call0_v3_0)) shapeCasts_S442368x128_S16x576x96x64 i = _
  rw [assign_left]

/-! ## The two reshaped arrays at an index -/

/-- The quantised result at an index of x is the quantised value of that element. -/
theorem quant_result_at (x0 : S16x576x96.Idx → EReal) (x1 : S64.Idx → EReal) (hc : S442368x2.ShapeCasts S16x576x96)
    (i : S16x576x96.Idx) :
    shapeCast S16x576x96 (quantArr x0 x1) hc i = quantDirect (x0 i) (fun j : Fin 64 => x1 (ix1 j)) := by
  have h0 : (i 0).val < 16 := (i 0).isLt
  have h1 : (i 1).val < 576 := (i 1).isLt
  have h2 : (i 2).val < 96 := (i 2).isLt
  obtain ⟨n, hn⟩ : ∃ n : Nat, n = ((i 0).val * 576 + (i 1).val) * 96 + (i 2).val := ⟨_, rfl⟩
  have hnlt : n < 884736 := by omega
  refine (shapeCast_apply _ hc i (ix2 (⟨n / 2, by omega⟩ : Fin 442368) (⟨n % 2, by omega⟩ : Fin 2)) (by
    rw [Shape.rowMajor_val_two, Shape.rowMajor_val_three]
    show n / 2 * 2 + n % 2 = ((i 0).val * 576 + (i 1).val) * 96 + (i 2).val
    omega)).trans ?_
  show quantDirect (x0 (unflat ⟨2 * (n / 2) + n % 2, by omega⟩)) (fun j : Fin 64 => x1 (ix1 j)) = _
  refine congrArg (fun z => quantDirect (x0 z) (fun j : Fin 64 => x1 (ix1 j))) ?_
  funext a; apply Fin.ext
  match a with
  | ⟨0, _⟩ => show (2 * (n / 2) + n % 2) / 55296 = (i 0).val; omega
  | ⟨1, _⟩ => show (2 * (n / 2) + n % 2) / 96 % 576 = (i 1).val; omega
  | ⟨2, _⟩ => show (2 * (n / 2) + n % 2) % 96 = (i 2).val; omega

/-- The assignment result at (an index of x, k) is that element's assignment to centre k. -/
theorem assign_result_at (x0 : S16x576x96.Idx → EReal) (x1 : S64.Idx → EReal) (hc : S442368x128.ShapeCasts S16x576x96x64)
    (i : S16x576x96x64.Idx) :
    shapeCast S16x576x96x64 (assignArr x0 x1) hc i
      = assignDirect (x0 (ix3 (i 0) (i 1) (i 2))) (fun j : Fin 64 => x1 (ix1 j)) (i 3) := by
  have h0 : (i 0).val < 16 := (i 0).isLt
  have h1 : (i 1).val < 576 := (i 1).isLt
  have h2 : (i 2).val < 96 := (i 2).isLt
  have h3 : (i 3).val < 64 := (i 3).isLt
  obtain ⟨n, hn⟩ : ∃ n : Nat, n = (((i 0).val * 576 + (i 1).val) * 96 + (i 2).val) * 64 + (i 3).val := ⟨_, rfl⟩
  have hnlt : n < 56623104 := by omega
  refine (shapeCast_apply _ hc i (ix2 (⟨n / 128, by omega⟩ : Fin 442368) (⟨n % 128, by omega⟩ : Fin 128)) (by
    rw [Shape.rowMajor_val_two, Shape.rowMajor_val_four]
    show n / 128 * 128 + n % 128 = (((i 0).val * 576 + (i 1).val) * 96 + (i 2).val) * 64 + (i 3).val
    omega)).trans ?_
  show assignDirect (x0 (unflat ⟨2 * (n / 128) + n % 128 / 64, by omega⟩)) (fun j : Fin 64 => x1 (ix1 j))
    (⟨n % 128 % 64, Nat.mod_lt _ (by decide)⟩ : Fin 64) = _
  have e1 : unflat ⟨2 * (n / 128) + n % 128 / 64, by omega⟩ = ix3 (i 0) (i 1) (i 2) := by
    funext a; apply Fin.ext
    match a with
    | ⟨0, _⟩ => show (2 * (n / 128) + n % 128 / 64) / 55296 = (i 0).val; omega
    | ⟨1, _⟩ => show (2 * (n / 128) + n % 128 / 64) / 96 % 576 = (i 1).val; omega
    | ⟨2, _⟩ => show (2 * (n / 128) + n % 128 / 64) % 96 = (i 2).val; omega
  have e3 : (⟨n % 128 % 64, Nat.mod_lt _ (by decide)⟩ : Fin 64) = i 3 := Fin.ext (by show n % 128 % 64 = (i 3).val; omega)
  exact congr (congrArg (fun z => assignDirect (x0 z) (fun j : Fin 64 => x1 (ix1 j))) e1) e3

/-! ## The run -/

/-- Every weakly fair execution of the kernel program terminates with its first result the quantised values and its
    second the assignments, in the direct arrangement, of the launch contents of x and the centres; the arguments end
    unchanged. -/
theorem run : θ_run defs (onTc (τ := τ) (main (F := Ideal))) ⟨m, fun _ => 0, ρ⟩ fun r => ∀ c : Dev nD,
      r.2.mem ((c : Thread nD τ).loc main_v0_0)
        = (fun i : S16x576x96.Idx => quantDirect (m ((c : Thread nD τ).loc main_arg0) i)
            (fun j : Fin 64 => m ((c : Thread nD τ).loc main_arg1) (ix1 j)))
      ∧ r.2.mem ((c : Thread nD τ).loc main_v0_1)
        = (fun i : S16x576x96x64.Idx => assignDirect (m ((c : Thread nD τ).loc main_arg0) (ix3 (i 0) (i 1) (i 2)))
            (fun j : Fin 64 => m ((c : Thread nD τ).loc main_arg1) (ix1 j)) (i 3))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨(((h c).2 main_v0_0 (Pipeline.mem_restRefs_of main_v0_0 (by decide) (by decide))).trans (tail_quant m c)).trans
        (funext fun i => quant_result_at _ _ _ i),
      (((h c).2 main_v0_1 (Pipeline.mem_restRefs_of main_v0_1 (by decide) (by decide))).trans (tail_assign m c)).trans
        (funext fun i => assign_result_at _ _ _ i),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Run

end
-- ==== Proof.RefRead.lean ====
/-
  The reference program read at an index.

  The reference works on arrays with one row per element of x (row n is element n of x flattened row-major,
  n = (i₀·576 + i₁)·96 + i₂) and one column per centre.  Stage by stage, at row n and column k, its values are the
  quantities of the shifted arrangement of Cert.SoftQuant at x_n and the centres c: the score, the largest score
  (a fold of max from minus infinity over the columns, compared once more with minus infinity), the shifted weight,
  the shifted total (summed from zero), the share, and the contraction of the shares with the centres.  The two
  results are reshapes of these back to x's own coordinates.
-/
import proofs.«148553_g82265803587872_cont_9to1_m_387_2_alg».proof.Proof.SoftQuant
import proofs.«148553_g82265803587872_cont_9to1_m_387_2_alg».proof.Proof.Gen.ReferenceIdeal.Read
import Idealize.ShloMosaic.Lib.ValueIdx
import Idealize.ShloMosaic.PureOps.Reduce

noncomputable section

namespace Cert.SoftQuant.Ref

open Cert.ReferenceIdeal Cert.ReferenceIdeal.Gen Cert.ReferenceIdeal.Read Idealize.ShloMosaic Idealize.ShloMosaic.ValueIdx
  Cert.SoftQuant

/-- Row n of the working arrays, as coordinates of x: n = (i₀·576 + i₁)·96 + i₂. -/
def unflat (n : Fin 884736) : S16x576x96.Idx :=
  ix3 ⟨n.val / 55296, by have := n.isLt; omega⟩ ⟨n.val / 96 % 576, Nat.mod_lt _ (by decide)⟩
    ⟨n.val % 96, Nat.mod_lt _ (by decide)⟩

/-- The row of the element of x at coordinates (a, b, c). -/
def flat (a : Fin 16) (b : Fin 576) (c : Fin 96) : Fin 884736 :=
  ⟨(a.val * 576 + b.val) * 96 + c.val, by have := a.isLt; have := b.isLt; have := c.isLt; omega⟩

/-- Flattening and unflattening give the coordinates back. -/
theorem unflat_flat (a : Fin 16) (b : Fin 576) (c : Fin 96) : unflat (flat a b c) = ix3 a b c := by
  have ha := a.isLt; have hb := b.isLt; have hc := c.isLt
  funext d
  refine Fin.ext ?_
  match d with
  | ⟨0, _⟩ => show ((a.val * 576 + b.val) * 96 + c.val) / 55296 = a.val; omega
  | ⟨1, _⟩ => show ((a.val * 576 + b.val) * 96 + c.val) / 96 % 576 = b.val; omega
  | ⟨2, _⟩ => show ((a.val * 576 + b.val) * 96 + c.val) % 96 = c.val; omega

variable (x0 : (⟨S16x576x96, .f32⟩ : BufTy).Contents (Elt Ideal)) (x1 : (⟨S64, .f32⟩ : BufTy).Contents (Elt Ideal))

/-- The broadcast of x reads element n of x on all of row n. -/
theorem x_at (n : Fin 884736) (k : Fin 64) : val_main_v2 (F := Ideal) x0 (ix2 n k) = x0 (unflat n) := by
  rw [val_main_v2_apply, val_main_v0_apply]
  refine congrArg x0 (funext fun a => Fin.ext ?_)
  match a with
  | ⟨0, _⟩ => show (n.val * 1 + 0) / 55296 = n.val / 55296; rw [Nat.mul_one, Nat.add_zero]
  | ⟨1, _⟩ => show (n.val * 1 + 0) / 96 % 576 = n.val / 96 % 576; rw [Nat.mul_one, Nat.add_zero]
  | ⟨2, _⟩ => show (n.val * 1 + 0) % 96 = n.val % 96; rw [Nat.mul_one, Nat.add_zero]

/-- The broadcast of the centres reads centre k on all of column k. -/
theorem c_at (n : Fin 884736) (k : Fin 64) : val_main_v3 (F := Ideal) x1 (ix2 n k) = x1 (ix1 k) := by
  rw [val_main_v3_apply, val_main_v1_apply]
  refine congrArg x1 (funext fun a => Fin.ext ?_)
  match a with
  | ⟨0, _⟩ => show 0 * 64 + k.val = k.val; omega

/-- Row n, column k of the scores: (−|x_n − c_k|) / 1. -/
theorem score_at (n : Fin 884736) (k : Fin 64) :
    val_main_v8 (F := Ideal) x0 x1 (ix2 n k) = score (x0 (unflat n)) (x1 (ix1 k)) := by
  rw [val_main_v8_apply, val_main_v6_apply, val_main_v5_apply, val_main_v4_apply, x_at, c_at, val_main_v7_apply,
    val_main_cst_apply]
  rfl

/-- max on the extended reals, as the float maximum of the ideal reading, commutes and associates. -/
local instance : Std.Commutative (FloatOps.maximumf (F := Ideal) (φ := .f32)) := ⟨fun a b => max_comm a b⟩
local instance : Std.Associative (FloatOps.maximumf (F := Ideal) (φ := .f32)) := ⟨fun a b c => max_assoc a b c⟩

/-- Dropping axis 1 of the working arrays' shape leaves the rows. -/
theorem reduces_rows : S884736x64.Reduces [(1 : Fin S884736x64.rank)] S884736 := by decide

/-- Row n of the row maximum: the fold of max from minus infinity over the scores of row n. -/
theorem max_at (n : Fin 884736) :
    val_main_v9 (F := Ideal) x0 x1 (ix1 n)
      = (Finset.univ : Finset (Fin 64)).fold max (Ideal.ofBits .f32 0xFF800000#32)
          (fun k => score (x0 (unflat n)) (x1 (ix1 k))) := by
  unfold val_main_v9
  have h := Host.reduce_eq_fold_single (a := (1 : Fin S884736x64.rank)) (FloatOps.maximumf (F := Ideal) (φ := .f32))
    (val_main_v8 (F := Ideal) x0 x1) (val_main_cst_0 (F := Ideal)) reducesTo_S884736x64_S884736_d1 reduces_rows h_S_ (ix1 n)
  refine h.trans ?_
  have hf : (val_main_v8 (F := Ideal) x0 x1 ∘ reduces_rows.lift (ix1 n))
      = fun k : Fin 64 => score (x0 (unflat n)) (x1 (ix1 k)) := by
    funext k
    show val_main_v8 (F := Ideal) x0 x1 _ = _
    rw [← score_at x0 x1 n k]
    exact congrArg (val_main_v8 (F := Ideal) x0 x1)
      (funext fun a => Fin.ext (by match a with | ⟨0, _⟩ => rfl | ⟨1, _⟩ => rfl))
  rw [hf]
  rfl

/-- Row n of the shift: the largest score of row n, compared once more with minus infinity. -/
theorem shift_at (n : Fin 884736) :
    val_main_v11 (F := Ideal) x0 x1 (ix1 n) = shift (x0 (unflat n)) (fun k : Fin 64 => x1 (ix1 k)) := by
  rw [val_main_v11_apply, val_main_v10_apply, val_main_cst_1_apply, max_at]
  rfl

/-- The shift, broadcast back along the columns. -/
theorem shiftb_at (n : Fin 884736) (k : Fin 64) :
    val_main_v13 (F := Ideal) x0 x1 (ix2 n k) = shift (x0 (unflat n)) (fun k : Fin 64 => x1 (ix1 k)) := by
  rw [val_main_v13_apply, val_main_v12_apply, ← shift_at x0 x1 n]
  exact congrArg (val_main_v11 (F := Ideal) x0 x1) (funext fun a => Fin.ext (by match a with | ⟨0, _⟩ => rfl))

/-- Row n, column k of the shifted weights: exp(score − shift). -/
theorem shifted_at (n : Fin 884736) (k : Fin 64) :
    val_main_v15 (F := Ideal) x0 x1 (ix2 n k) = shifted (x0 (unflat n)) (fun k : Fin 64 => x1 (ix1 k)) k := by
  rw [val_main_v15_apply, val_main_v14_apply, score_at, shiftb_at]
  rfl

/-- Row n of the shifted total: zero plus the sum of the shifted weights of row n. -/
theorem total_at (n : Fin 884736) :
    val_main_v16 (F := Ideal) x0 x1 (ix1 n)
      = Ideal.ofBits .f32 0x00000000#32 + ∑ j : Fin 64, shifted (x0 (unflat n)) (fun k : Fin 64 => x1 (ix1 k)) j := by
  rw [val_main_v16_apply, val_main_cst_2_apply]
  refine congrArg (_ + ·) (Finset.sum_congr rfl fun j _ => ?_)
  rw [← shifted_at x0 x1 n j]
  exact congrArg (val_main_v15 (F := Ideal) x0 x1)
    (funext fun a => Fin.ext (by match a with | ⟨0, _⟩ => rfl | ⟨1, _⟩ => rfl))

/-- The shifted total, broadcast back along the columns. -/
theorem totalb_at (n : Fin 884736) (k : Fin 64) :
    val_main_v18 (F := Ideal) x0 x1 (ix2 n k)
      = Ideal.ofBits .f32 0x00000000#32 + ∑ j : Fin 64, shifted (x0 (unflat n)) (fun k : Fin 64 => x1 (ix1 k)) j := by
  rw [val_main_v18_apply, val_main_v17_apply, ← total_at x0 x1 n]
  exact congrArg (val_main_v16 (F := Ideal) x0 x1) (funext fun a => Fin.ext (by match a with | ⟨0, _⟩ => rfl))

/-- Row n, column k of the shares: the shifted weight over the shifted total. -/
theorem assign_at (n : Fin 884736) (k : Fin 64) :
    val_main_v19 (F := Ideal) x0 x1 (ix2 n k) = assignShifted (x0 (unflat n)) (fun k : Fin 64 => x1 (ix1 k)) k := by
  rw [val_main_v19_apply, shifted_at, totalb_at]
  rfl

/-- The centres as a column: row k holds centre k. -/
theorem ccol_at (k : Fin 64) (z : Fin 1) : val_main_v20 (F := Ideal) x1 (ix2 k z) = x1 (ix1 k) := by
  rw [val_main_v20_apply]
  refine congrArg x1 (funext fun a => Fin.ext ?_)
  have hz := z.isLt
  match a with
  | ⟨0, _⟩ => show k.val * 1 + z.val = k.val; omega

/-- Row n of the contraction: the shares of row n against the centres. -/
theorem quant_at (n : Fin 884736) (z : Fin 1) :
    val_main_v21 (F := Ideal) x0 x1 (ix2 n z)
      = ∑ k : Fin 64, assignShifted (x0 (unflat n)) (fun k : Fin 64 => x1 (ix1 k)) k * x1 (ix1 k) := by
  rw [val_main_v21_apply]
  refine Finset.sum_congr rfl fun k _ => ?_
  rw [← assign_at x0 x1 n k, ← ccol_at x1 k z]
  refine congrArg₂ (· * ·) ?_ ?_
  · exact congrArg (val_main_v19 (F := Ideal) x0 x1)
      (funext fun a => Fin.ext (by match a with | ⟨0, _⟩ => rfl | ⟨1, _⟩ => rfl))
  · exact congrArg (val_main_v20 (F := Ideal) x1)
      (funext fun a => Fin.ext (by match a with | ⟨0, _⟩ => rfl | ⟨1, _⟩ => rfl))

/-- The first result at coordinates i of x: the shifted arrangement's quantised value of x_i. -/
theorem ref_quant (i : S16x576x96.Idx) :
    val_main_v24 (F := Ideal) x0 x1 i = quantShifted (x0 i) (fun k : Fin 64 => x1 (ix1 k)) := by
  rw [val_main_v24_apply, val_main_v23_apply, val_main_v22_apply]
  have hi : idx_main_v22 i = ix2 (flat (i 0) (i 1) (i 2)) (0 : Fin 1) := funext fun a => Fin.ext (by
    match a with
    | ⟨0, _⟩ =>
      show (((i 0).val * 576 + (i 1).val) * 96 + (i 2).val) / 1 = ((i 0).val * 576 + (i 1).val) * 96 + (i 2).val
      exact Nat.div_one _
    | ⟨1, _⟩ => rfl)
  have hx : x0 (unflat (flat (i 0) (i 1) (i 2))) = x0 i :=
    congrArg x0 ((unflat_flat (i 0) (i 1) (i 2)).trans (eq_ix3 i).symm)
  rw [hi, quant_at, hx]
  rfl

/-- The second result at coordinates (i₀, i₁, i₂, k): the shifted arrangement's share of centre k for x at (i₀, i₁, i₂). -/
theorem ref_assign (i : S16x576x96x64.Idx) :
    val_main_v25 (F := Ideal) x0 x1 i
      = assignShifted (x0 (ix3 (i 0) (i 1) (i 2))) (fun k : Fin 64 => x1 (ix1 k)) (i 3) := by
  have h0 : (i 0).val < 16 := (i 0).isLt
  have h1 : (i 1).val < 576 := (i 1).isLt
  have h2 : (i 2).val < 96 := (i 2).isLt
  have h3 : (i 3).val < 64 := (i 3).isLt
  rw [val_main_v25_apply]
  have hi : idx_main_v25 i = ix2 (flat (i 0) (i 1) (i 2)) (i 3) := funext fun a => Fin.ext (by
    match a with
    | ⟨0, _⟩ =>
      show ((((i 0).val * 576 + (i 1).val) * 96 + (i 2).val) * 64 + (i 3).val) / 64
        = ((i 0).val * 576 + (i 1).val) * 96 + (i 2).val
      omega
    | ⟨1, _⟩ =>
      show ((((i 0).val * 576 + (i 1).val) * 96 + (i 2).val) * 64 + (i 3).val) % 64 = (i 3).val
      omega)
  have hx : x0 (unflat (flat (i 0) (i 1) (i 2))) = x0 (ix3 (i 0) (i 1) (i 2)) :=
    congrArg x0 (unflat_flat (i 0) (i 1) (i 2))
  rw [hi]
  exact (assign_at x0 x1 (flat (i 0) (i 1) (i 2)) (i 3)).trans
    (congrArg (fun x => assignShifted x (fun k : Fin 64 => x1 (ix1 k)) (i 3)) hx)

end Cert.SoftQuant.Ref

end
-- ==== Proof.LibIdealReal.lean ====
/-
  Extended-real operations on real inputs.

  A float at the ideal reading is an extended real, and every operation is total; when its inputs are real numbers
  its result is the real result, read back in the extended reals.  This file records that for the operations a
  softmax meets: the exponential (with the conventions for minus infinity), the total quotient by a nonzero real,
  the larger of two numbers, the largest entry of a nonempty finite family folded from minus infinity, and finite
  sums and products.  Each statement is the bridge that lets an identity proved over the real numbers be used for
  the extended-real expressions.
-/
import Idealize.ShloMosaic.PureOps.Ideal
import Mathlib.Data.Finset.Fold
import Mathlib.Order.Interval.Finset.Basic

noncomputable section

open Idealize.ShloMosaic

namespace Cert.IdealReal

/-- A finite sum of real numbers, read in the extended reals, is the sum of their readings. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A finite sum of products of real numbers. -/
theorem coe_sum_mul {ι : Type*} (s : Finset ι) (f g : ι → ℝ) :
    ∑ i ∈ s, (f i : EReal) * (g i : EReal) = ((∑ i ∈ s, f i * g i : ℝ) : EReal) := by
  rw [coe_sum]
  exact Finset.sum_congr rfl fun i _ => (EReal.coe_mul _ _).symm

/-- The exponential of a real number. -/
theorem exp_coe (r : ℝ) : Ideal.exp (r : EReal) = (Real.exp r : EReal) := rfl

/-- The exponential of a difference of real numbers. -/
theorem exp_sub_coe (a b : ℝ) : Ideal.exp ((a : EReal) - (b : EReal)) = (Real.exp (a - b) : EReal) := by
  rw [← EReal.coe_sub]; rfl

/-- Minus infinity less a real number is minus infinity. -/
theorem bot_sub_coe (r : ℝ) : (⊥ : EReal) - (r : EReal) = ⊥ := by
  rw [sub_eq_add_neg, EReal.bot_add]

/-- The exponential of minus infinity less a real number is zero. -/
theorem exp_bot_sub_coe (r : ℝ) : Ideal.exp ((⊥ : EReal) - (r : EReal)) = 0 := by
  rw [bot_sub_coe]; rfl

/-- The exponential of minus infinity is zero. -/
theorem exp_bot : Ideal.exp (⊥ : EReal) = 0 := rfl

/-- The total quotient of a real number by a nonzero real number is the real quotient. -/
theorem div_coe_coe (a b : ℝ) (hb : b ≠ 0) : Ideal.div (a : EReal) (b : EReal) = ((a / b : ℝ) : EReal) := by
  rw [Ideal.div_coe hb, ← EReal.coe_mul]
  congr 1
  rw [mul_one_div]

/-- The total quotient by a nonzero real number is the product with its reciprocal, whatever the numerator. -/
theorem div_coe (x : EReal) (c : ℝ) (hc : c ≠ 0) : Ideal.div x (c : EReal) = x * ((1 / c : ℝ) : EReal) :=
  Ideal.div_coe hc x

/-- The larger of two real numbers. -/
theorem max_coe (a b : ℝ) : max (a : EReal) (b : EReal) = ((max a b : ℝ) : EReal) :=
  (EReal.coe_strictMono.monotone.map_max).symm

/-- Minus infinity is neutral for the larger of two. -/
theorem max_bot_coe (a : ℝ) : max (⊥ : EReal) (a : EReal) = (a : EReal) := max_eq_right bot_le

/-- The largest entry of a nonempty finite family of real numbers. -/
def rmax {C : Type*} [Fintype C] [Nonempty C] (z : C → ℝ) : ℝ := Finset.univ.sup' Finset.univ_nonempty z

theorem le_rmax {C : Type*} [Fintype C] [Nonempty C] (z : C → ℝ) (c : C) : z c ≤ rmax z :=
  Finset.le_sup' z (Finset.mem_univ c)

theorem rmax_attained {C : Type*} [Fintype C] [Nonempty C] (z : C → ℝ) : ∃ c, rmax z = z c := by
  obtain ⟨c, _, hc⟩ := Finset.exists_mem_eq_sup' Finset.univ_nonempty z
  exact ⟨c, hc⟩

/-- The largest entry is the only number that bounds every entry and is one of them. -/
theorem rmax_unique {C : Type*} [Fintype C] [Nonempty C] (z : C → ℝ) (R : ℝ) (hle : ∀ c, z c ≤ R)
    (hat : ∃ c, R = z c) : rmax z = R := by
  obtain ⟨c, hc⟩ := hat
  obtain ⟨c', hc'⟩ := rmax_attained z
  exact le_antisymm (hc' ▸ hle c') (hc ▸ le_rmax z c)

/-- Folding the larger-of-two from minus infinity over a nonempty finite family of real numbers gives the largest
    entry, a real number. -/
theorem fold_max_coe {C : Type*} [Fintype C] [Nonempty C] (z : C → ℝ) :
    (Finset.univ : Finset C).fold max ⊥ (fun c => (z c : EReal)) = ((rmax z : ℝ) : EReal) := by
  apply le_antisymm
  · exact (Finset.fold_max_le _).mpr ⟨bot_le, fun c _ => EReal.coe_le_coe_iff.mpr (le_rmax z c)⟩
  · obtain ⟨c, hc⟩ := rmax_attained z
    exact (Finset.le_fold_max _).mpr (Or.inr ⟨c, Finset.mem_univ c, by rw [hc]⟩)

/-- The same with a further larger-of-two against minus infinity in front. -/
theorem max_bot_fold_max_coe {C : Type*} [Fintype C] [Nonempty C] (z : C → ℝ) :
    max ⊥ ((Finset.univ : Finset C).fold max ⊥ (fun c => (z c : EReal))) = ((rmax z : ℝ) : EReal) := by
  rw [fold_max_coe]; exact max_bot_coe _

/-- A real number times zero, and zero times zero. -/
theorem coe_mul_zero (a : ℝ) : (a : EReal) * 0 = 0 := mul_zero _

theorem zero_add_coe (a : ℝ) : (0 : EReal) + (a : EReal) = (a : EReal) := zero_add _

end Cert.IdealReal

end
-- ==== Proof.SoftQuantLaw.lean ====
/-
  The two arrangements of soft quantisation agree on real inputs.

  When the number x = a and every centre c_k are real numbers, every stage of either arrangement is a real number
  read in the extended reals: the distance d_k = max (a − c_k) (−(a − c_k)), the weight w_k = exp (0 − d_k) > 0,
  the total T = Σ_j w_j > 0 and its reciprocal 1 / T, the score s_k = −d_k / 1, the largest score M, the shifted
  weight exp (s_k − M), and the shifted total 0 + Σ_j exp (s_j − M) > 0.

  Since s_k − M = (0 − d_k) + (−M), the shifted weight is w_k · exp (−M) and the shifted total is T · exp (−M);
  the common positive factor exp (−M) cancels, so the shifted share w_k · exp (−M) / (T · exp (−M)) is the direct
  share w_k · (1 / T).  The quantised values then agree because (Σ_j w_j · c_j) · (1 / T) = Σ_k (w_k · (1 / T)) · c_k
  and a + (q − a) = q.

  The file also records what the three float words denote: zero, one, and minus infinity.
-/
import proofs.«148553_g82265803587872_cont_9to1_m_387_2_alg».proof.Proof.SoftQuant
import proofs.«148553_g82265803587872_cont_9to1_m_387_2_alg».proof.Proof.LibIdealReal
import Mathlib.Tactic

noncomputable section

open Idealize.ShloMosaic
open Cert.IdealReal

namespace Cert.SoftQuant

/-! ### The three float words -/

/-- The word of all zero bits denotes 0. -/
theorem word_zero : Ideal.ofBits .f32 0x00000000#32 = (0 : EReal) := by
  simp [Ideal.ofBits, Ideal.ieee]

/-- Sign 0, exponent field 127, significand field 0: the number 2^23 · 2^(127 − 127 − 23) = 1. -/
theorem word_one : Ideal.ofBits .f32 0x3F800000#32 = (1 : EReal) := by
  simp [Ideal.ofBits, Ideal.ieee, -EReal.coe_mul]; norm_num

/-- Sign 1, exponent field all ones, significand field 0: minus infinity. -/
theorem word_neg_inf : Ideal.ofBits .f32 0xFF800000#32 = (⊥ : EReal) := by
  simp [Ideal.ofBits, Ideal.ieee]

/-! ### The real-valued stages -/

/-- The distance |a − c| as the larger of the difference and its negative. -/
def distR (a c : ℝ) : ℝ := max (a - c) (-(a - c))

/-- The weight exp (0 − |a − c|). -/
def weightR (a c : ℝ) : ℝ := Real.exp (0 - distR a c)

/-- The score −|a − c| / 1. -/
def scoreR (a c : ℝ) : ℝ := -(distR a c) / 1

theorem weightR_pos (a c : ℝ) : 0 < weightR a c := Real.exp_pos _

variable {C : Type} [Fintype C] [Nonempty C]

/-- The total of the weights. -/
def totalR (a : ℝ) (cr : C → ℝ) : ℝ := ∑ j, weightR a (cr j)

theorem totalR_pos (a : ℝ) (cr : C → ℝ) : 0 < totalR a cr :=
  Finset.sum_pos (fun j _ => weightR_pos a (cr j)) Finset.univ_nonempty

/-- The largest score. -/
def shiftR (a : ℝ) (cr : C → ℝ) : ℝ := rmax (fun k => scoreR a (cr k))

/-- The shifted weight exp (s_k − M). -/
def shiftedR (a : ℝ) (cr : C → ℝ) (k : C) : ℝ := Real.exp (scoreR a (cr k) - shiftR a cr)

/-- The shifted total, summed from zero. -/
def shiftedTotalR (a : ℝ) (cr : C → ℝ) : ℝ := 0 + ∑ j, shiftedR a cr j

/-! ### Each extended-real stage is the reading of the real stage -/

theorem dist_coe (a c : ℝ) : dist (a : EReal) (c : EReal) = ((distR a c : ℝ) : EReal) := by
  unfold dist distR
  rw [← EReal.coe_sub, ← EReal.coe_neg, max_coe]

theorem weight_coe (a c : ℝ) : weight (a : EReal) (c : EReal) = ((weightR a c : ℝ) : EReal) := by
  unfold weight weightR
  rw [word_zero, dist_coe, ← EReal.coe_zero, exp_sub_coe]

theorem total_coe (a : ℝ) (cr : C → ℝ) :
    ∑ j, weight (a : EReal) ((cr j : ℝ) : EReal) = ((totalR a cr : ℝ) : EReal) := by
  unfold totalR
  rw [coe_sum]
  exact Finset.sum_congr rfl fun j _ => weight_coe a (cr j)

theorem recipTotal_coe (a : ℝ) (cr : C → ℝ) :
    recipTotal (a : EReal) (fun j => (cr j : EReal)) = ((1 / totalR a cr : ℝ) : EReal) := by
  unfold recipTotal
  rw [word_one, total_coe, ← EReal.coe_one, div_coe_coe _ _ (ne_of_gt (totalR_pos a cr))]

theorem assignDirect_coe (a : ℝ) (cr : C → ℝ) (k : C) :
    assignDirect (a : EReal) (fun j => (cr j : EReal)) k
      = ((weightR a (cr k) * (1 / totalR a cr) : ℝ) : EReal) := by
  unfold assignDirect
  rw [recipTotal_coe, weight_coe, ← EReal.coe_mul]

theorem score_coe (a c : ℝ) : score (a : EReal) (c : EReal) = ((scoreR a c : ℝ) : EReal) := by
  unfold score scoreR
  rw [dist_coe, ← EReal.coe_neg, word_one, ← EReal.coe_one, div_coe_coe _ _ one_ne_zero]

theorem shift_coe (a : ℝ) (cr : C → ℝ) :
    shift (a : EReal) (fun j => (cr j : EReal)) = ((shiftR a cr : ℝ) : EReal) := by
  unfold shift shiftR
  rw [word_neg_inf]
  simp only [score_coe]
  exact max_bot_fold_max_coe _

theorem shifted_coe (a : ℝ) (cr : C → ℝ) (k : C) :
    shifted (a : EReal) (fun j => (cr j : EReal)) k = ((shiftedR a cr k : ℝ) : EReal) := by
  unfold shifted shiftedR
  rw [shift_coe, score_coe, exp_sub_coe]

theorem shiftedTotal_coe (a : ℝ) (cr : C → ℝ) :
    Ideal.ofBits .f32 0x00000000#32 + ∑ j, shifted (a : EReal) (fun j => (cr j : EReal)) j
      = ((shiftedTotalR a cr : ℝ) : EReal) := by
  unfold shiftedTotalR
  rw [word_zero, EReal.coe_add, EReal.coe_zero, coe_sum]
  congr 1
  exact Finset.sum_congr rfl fun j _ => shifted_coe a cr j

/-! ### The common factor -/

/-- The shifted weight is the weight times exp (−M). -/
theorem shiftedR_eq (a : ℝ) (cr : C → ℝ) (k : C) :
    shiftedR a cr k = weightR a (cr k) * Real.exp (-(shiftR a cr)) := by
  unfold shiftedR weightR scoreR
  rw [← Real.exp_add]
  congr 1
  ring

/-- The shifted total is the total times exp (−M). -/
theorem shiftedTotalR_eq (a : ℝ) (cr : C → ℝ) :
    shiftedTotalR a cr = totalR a cr * Real.exp (-(shiftR a cr)) := by
  unfold shiftedTotalR totalR
  rw [zero_add, Finset.sum_mul]
  exact Finset.sum_congr rfl fun j _ => shiftedR_eq a cr j

theorem shiftedTotalR_pos (a : ℝ) (cr : C → ℝ) : 0 < shiftedTotalR a cr := by
  rw [shiftedTotalR_eq]
  exact mul_pos (totalR_pos a cr) (Real.exp_pos _)

theorem assignShifted_coe (a : ℝ) (cr : C → ℝ) (k : C) :
    assignShifted (a : EReal) (fun j => (cr j : EReal)) k
      = ((shiftedR a cr k / shiftedTotalR a cr : ℝ) : EReal) := by
  unfold assignShifted
  rw [shiftedTotal_coe, shifted_coe, div_coe_coe _ _ (ne_of_gt (shiftedTotalR_pos a cr))]

/-- The shifted share is the direct share: exp (−M) cancels. -/
theorem share_eq (a : ℝ) (cr : C → ℝ) (k : C) :
    weightR a (cr k) * (1 / totalR a cr) = shiftedR a cr k / shiftedTotalR a cr := by
  rw [shiftedR_eq, shiftedTotalR_eq]
  have hT : totalR a cr ≠ 0 := ne_of_gt (totalR_pos a cr)
  have hE : Real.exp (-(shiftR a cr)) ≠ 0 := ne_of_gt (Real.exp_pos _)
  field_simp

/-! ### The two arrangements agree -/

/-- The assignments agree at every centre. -/
theorem assign_eq (a : ℝ) (cr : C → ℝ) (k : C) :
    assignDirect (a : EReal) (fun j => (cr j : EReal)) k
      = assignShifted (a : EReal) (fun j => (cr j : EReal)) k := by
  rw [assignDirect_coe, assignShifted_coe, share_eq]

/-- The quantised values agree. -/
theorem quant_eq (a : ℝ) (cr : C → ℝ) :
    quantDirect (a : EReal) (fun j => (cr j : EReal))
      = quantShifted (a : EReal) (fun j => (cr j : EReal)) := by
  unfold quantDirect quantShifted
  have hS : ∑ k, assignShifted (a : EReal) (fun j => (cr j : EReal)) k * ((cr k : ℝ) : EReal)
      = ((∑ k, (weightR a (cr k) * (1 / totalR a cr)) * cr k : ℝ) : EReal) := by
    rw [← coe_sum_mul]
    exact Finset.sum_congr rfl fun k _ => by rw [← assign_eq, assignDirect_coe]
  have hD : ∑ j, weight (a : EReal) ((cr j : ℝ) : EReal) * ((cr j : ℝ) : EReal)
      = ((∑ j, weightR a (cr j) * cr j : ℝ) : EReal) := by
    rw [← coe_sum_mul]
    exact Finset.sum_congr rfl fun j _ => by rw [weight_coe]
  rw [hS, hD, recipTotal_coe, ← EReal.coe_mul, ← EReal.coe_sub, ← EReal.coe_add]
  congr 1
  rw [Finset.sum_mul, add_sub_cancel]
  exact Finset.sum_congr rfl fun j _ => by ring

end Cert.SoftQuant

end
-- ==== Proof.Bridge.lean ====
/-
  The two arrangements of soft quantisation agree on real inputs.

  When x and every centre are real numbers the direct arrangement (weights times the reciprocal of their total) and the
  shifted arrangement (scores lowered by their maximum, shares by division, x + (q − x)) give the same assignment and
  the same quantised value: the common factor exp(−largest score) cancels, and x + (q − x) = q.  On the extended reals
  the hypothesis is needed: with an infinite input the cancellation fails.
-/
import proofs.«148553_g82265803587872_cont_9to1_m_387_2_alg».proof.Proof.SoftQuantLaw

noncomputable section

namespace Cert.SoftQuant

variable {C : Type} [Fintype C] [Nonempty C]

theorem assign_agree (x : EReal) (c : C → EReal) (hx : ∃ r : ℝ, x = (r : EReal)) (hc : ∀ k, ∃ r : ℝ, c k = (r : EReal)) (k : C) :
    assignDirect x c k = assignShifted x c k := by
  obtain ⟨a, rfl⟩ := hx
  choose cr hcr using hc
  obtain rfl : c = fun j => (cr j : EReal) := funext hcr
  exact assign_eq a cr k

theorem quant_agree (x : EReal) (c : C → EReal) (hx : ∃ r : ℝ, x = (r : EReal)) (hc : ∀ k, ∃ r : ℝ, c k = (r : EReal)) :
    quantDirect x c = quantShifted x c := by
  obtain ⟨a, rfl⟩ := hx
  choose cr hcr using hc
  obtain rfl : c = fun j => (cr j : EReal) := funext hcr
  exact quant_eq a cr

end Cert.SoftQuant

end
-- ==== Proof.LibFiniteReal.lean ====
/-
  "Every entry is finite", read back at the ideal reading: every entry is a real number.

  A precondition that says an array holds finite floats is printed as: take absolute values, compare each with the
  infinity word by "less than", and fold the one-bit answers by "and" from one; the claim states that the result is one.
  At the ideal reading a float is an extended real, the infinity word is `+∞`, the absolute value of `x` is the larger of
  `x` and `−x`, and the comparison is the order's.  So the fold being one says `max x (−x) < +∞` of every entry, and an
  extended real with that property is neither infinity: it is a real number.  This is the step that lets an identity
  proved over the real numbers be used under a finiteness precondition, for an array of any shape.  The companion
  read-back of "every entry is greater than zero" is stated the same way.
-/
import Idealize.ShloMosaic.PureOps.Ideal
import Idealize.ShloMosaic.Lib.ReduceAll
import Idealize.ShloMosaic.Lib.Pipeline.Value

noncomputable section

open Idealize.ShloMosaic

namespace Cert.FiniteReal

/-- The infinity word denotes `+∞`. -/
theorem inf_word : Ideal.ofBits .f32 0x7F800000#32 = (⊤ : EReal) := by simp [Ideal.ofBits, Ideal.ieee]

/-- An extended real whose absolute value is below `+∞` is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The absolute value and the comparison at the ideal reading, on any two extended reals. -/
theorem absf_ideal (x : EReal) : FloatOps.absf (F := Ideal) (φ := .f32) x = max x (-x) := rfl
theorem cmpf_ideal (p : CmpFPredicate) (x y : EReal) : FloatOps.cmpf (F := Ideal) (φ := .f32) p x y = Ideal.cmp p x y := rfl

/-- One entry: if "its absolute value is less than the infinity word" is the word one, the entry is a real number. -/
theorem real_of_finite_word (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [Ideal.hostAbsf_def, absf_ideal, cmpf_ideal, inf_word] at h
  apply real_of_abs_lt_top
  by_contra hn
  unfold Ideal.cmp at h
  simp [hn] at h

section Generic

variable {F : FTy → Type} [FloatOps F] {s : Shape}

/-- The entrywise comparison of the absolute values with a spread scalar, opened at an index. -/
theorem finite_test_open (x : FVec F s .f32) (hb : (⟨0, ![]⟩ : Shape).BroadcastsInDim s (![] : Fin 0 → Fin s.rank))
    (c : FVec F ⟨0, ![]⟩ .f32) (i : s.Idx) :
    cmpf .olt (Host.absf x) (broadcastInDim s ![] hb c) i
      = FloatOps.cmpf .olt (FloatOps.hostAbsf (x i)) (broadcastInDim s ![] hb c i) := rfl

end Generic

/-- All entries: if the fold by "and" of "absolute value less than the infinity word" over the whole array is one, every
    entry of the array is a real number. -/
theorem real_of_all_finite {s u : Shape} {axes : List (Fin s.rank)} (x : FVec Ideal s .f32)
    (hb : (⟨0, ![]⟩ : Shape).BroadcastsInDim s (![] : Fin 0 → Fin s.rank)) (init : u.Idx → BitVec 1)
    (h : s.ReducesTo axes ⟨0, ![]⟩) (hu : 0 < u.numel) (j : (⟨0, ![]⟩ : Shape).Idx)
    (e : Host.reduce IntOp.andi
        (cmpf .olt (Host.absf x) (broadcastInDim s ![] hb (constant (F := Ideal) ⟨0, ![]⟩ .f32 0x7F800000#32))) init h hu j = 1#1)
    (i : s.Idx) : ∃ r : ℝ, x i = (r : EReal) := by
  haveI : Subsingleton (⟨0, ![]⟩ : Shape).Idx := ⟨fun a b => funext fun d => d.elim0⟩
  have e1 := Host.reduce_andi_all _ init h hu j e i
  rw [finite_test_open,
    broadcastInDim_apply ![] hb (constant (F := Ideal) ⟨0, ![]⟩ .f32 0x7F800000#32) i (fun a => a.elim0) (fun a => a.elim0)] at e1
  exact real_of_finite_word (x i) e1

section GenericGt

variable {F : FTy → Type} [FloatOps F] {s : Shape}

/-- The entrywise comparison "greater than" with a spread scalar, opened at an index. -/
theorem gt_test_open (v : FVec F s .f32) (hb : (⟨0, ![]⟩ : Shape).BroadcastsInDim s (![] : Fin 0 → Fin s.rank))
    (c : FVec F ⟨0, ![]⟩ .f32) (i : s.Idx) :
    cmpf .ogt v (broadcastInDim s ![] hb c) i = FloatOps.cmpf .ogt (v i) (broadcastInDim s ![] hb c i) := rfl

end GenericGt

/-- "Every entry is greater than zero", read back: if the fold by "and" of "greater than the zero word" over the whole
    array is one, every entry of the array is positive. -/
theorem pos_of_all_gt_zero {s u : Shape} {axes : List (Fin s.rank)} (v : FVec Ideal s .f32)
    (hb : (⟨0, ![]⟩ : Shape).BroadcastsInDim s (![] : Fin 0 → Fin s.rank)) (init : u.Idx → BitVec 1)
    (h : s.ReducesTo axes ⟨0, ![]⟩) (hu : 0 < u.numel) (j : (⟨0, ![]⟩ : Shape).Idx)
    (e : Host.reduce IntOp.andi
        (cmpf .ogt v (broadcastInDim s ![] hb (constant (F := Ideal) ⟨0, ![]⟩ .f32 0x00000000#32))) init h hu j = 1#1)
    (i : s.Idx) : 0 < v i := by
  haveI : Subsingleton (⟨0, ![]⟩ : Shape).Idx := ⟨fun a b => funext fun d => d.elim0⟩
  have e1 := Host.reduce_andi_all _ init h hu j e i
  rw [gt_test_open,
    broadcastInDim_apply ![] hb (constant (F := Ideal) ⟨0, ![]⟩ .f32 0x00000000#32) i (fun a => a.elim0) (fun a => a.elim0),
    cmpf_ideal] at e1
  have hz : (constant (F := Ideal) ⟨0, ![]⟩ .f32 0x00000000#32) (fun a => a.elim0) = (0 : EReal) := by
    show Ideal.ofBits .f32 0x00000000#32 = 0
    simp [Ideal.ofBits, Ideal.ieee]
  rw [hz] at e1
  by_contra hn
  unfold Ideal.cmp at e1
  simp [hn] at e1

end Cert.FiniteReal

end
-- ==== Proof.Finite.lean ====
/-
  The precondition, read back: every entry of x and every centre is a real number.

  The precondition is printed as the conjunction of two tests, one per input: take absolute values, compare each
  with the infinity word by "less than", and fold the answers by "and" from one.  At the ideal reading an input entry
  is an extended real; the conjunction being one says each of the two folds is one, and a fold being one says every
  entry's absolute value is below +∞, so the entry is neither infinity.
-/
import proofs.«148553_g82265803587872_cont_9to1_m_387_2_alg».proof.Pre_finite_inputs
import proofs.«148553_g82265803587872_cont_9to1_m_387_2_alg».proof.Proof.LibFiniteReal
import Idealize.ShloMosaic.Lib.Affine
import Idealize.ShloMosaic.Lib.ValueIdx

noncomputable section

namespace Cert.SoftQuant.Finite

open Idealize.ShloMosaic

/-- If the finiteness test of the two inputs is one, every entry of either input is a real number. -/
theorem real_inputs [hP : Cert.Pre_finite_inputs.Facts]
    (a0 : FVec Ideal Cert.Pre_finite_inputs.S16x576x96 .f32) (a1 : FVec Ideal Cert.Pre_finite_inputs.S64 .f32)
    (h : Cert.Pre_finite_inputs.fn (F := Ideal) a0 a1 = fun _ => 1#1) :
    (∀ i, ∃ r : ℝ, a0 i = (r : EReal)) ∧ (∀ k, ∃ r : ℝ, a1 k = (r : EReal)) := by
  have h1 := congrFun h ValueIdx.ix0
  dsimp only [Cert.Pre_finite_inputs.fn] at h1
  obtain ⟨hA, hB⟩ := IntOp.andi_eq_one.mp h1
  exact ⟨fun i => Cert.FiniteReal.real_of_all_finite a0 _ _ _ _ _ hA i,
    fun k => Cert.FiniteReal.real_of_all_finite a1 _ _ _ _ _ hB k⟩

end Cert.SoftQuant.Finite

end
-- ==== Proof.lean ====
/-
  Soft quantisation against 64 centres: the kernel and its reference compute the same two arrays.

  For every element x of a [16, 576, 96] array and centres c_0 … c_63, centre k has weight w_k = exp(−|x − c_k|); the
  assignment of x to centre k is w_k / Σ_j w_j and the quantised value is Σ_k (w_k / Σ_j w_j) · c_k.

  The kernel views x as 442368 rows of two consecutive elements and the assignments as rows of 128 lanes, lanes
  0…63 for a row's first element and 64…127 for its second, against the centres set twice in one row of 128.  Per row
  it forms the 128 weights, the two half-row totals and the two half-row sums of weight times centre, multiplies the
  weights by the reciprocal of their half's total, and the weighted sums by the same reciprocals; a grid of 432 points
  does 1024 rows each.  Reshaping back gives, at each element, (Σ_k w_k · c_k) · (1 / Σ_j w_j) and, at each element and
  centre, w_k · (1 / Σ_j w_j).

  The reference lowers every score −|x − c_k| / 1 by the row's largest score before the exponential, divides each
  shifted weight by the shifted total, contracts the shares with the centres, and returns x + (that − x).

  On the extended reals these agree when x and the centres are real numbers, which is what the precondition says:
  the common factor exp(−largest score) cancels between a shifted weight and the shifted total, the total is a
  positive real so multiplying by its reciprocal is dividing by it, the reciprocal moves inside the finite sum, and
  x + (q − x) = q.  With an infinite input none of these steps is available.

  The three programs run, terminate and leave their arguments as they found them; the idealised kernel is the kernel's
  own text read on the extended reals, nothing rewritten.
-/
import proofs.«148553_g82265803587872_cont_9to1_m_387_2_alg».proof.Defs
import proofs.«148553_g82265803587872_cont_9to1_m_387_2_alg».proof.Proof.Gen.Kernel
import proofs.«148553_g82265803587872_cont_9to1_m_387_2_alg».proof.Proof.Gen.Kernel.Skeleton
import proofs.«148553_g82265803587872_cont_9to1_m_387_2_alg».proof.Proof.Gen.Kernel.Launch
import proofs.«148553_g82265803587872_cont_9to1_m_387_2_alg».proof.Proof.Gen.Kernel.Points
import proofs.«148553_g82265803587872_cont_9to1_m_387_2_alg».proof.Proof.Gen.Kernel.Frame
import proofs.«148553_g82265803587872_cont_9to1_m_387_2_alg».proof.Proof.Gen.KernelIdeal
import proofs.«148553_g82265803587872_cont_9to1_m_387_2_alg».proof.Proof.Gen.KernelIdeal.Skeleton
import proofs.«148553_g82265803587872_cont_9to1_m_387_2_alg».proof.Proof.Gen.KernelIdeal.Launch
import proofs.«148553_g82265803587872_cont_9to1_m_387_2_alg».proof.Proof.Gen.KernelIdeal.Points
import proofs.«148553_g82265803587872_cont_9to1_m_387_2_alg».proof.Proof.Gen.KernelIdeal.Frame
import proofs.«148553_g82265803587872_cont_9to1_m_387_2_alg».proof.Proof.Gen.ReferenceIdeal
import proofs.«148553_g82265803587872_cont_9to1_m_387_2_alg».proof.Proof.Gen.Pre_finite_inputs
import proofs.«148553_g82265803587872_cont_9to1_m_387_2_alg».proof.Proof.Gen.ReferenceIdeal.Read
import proofs.«148553_g82265803587872_cont_9to1_m_387_2_alg».proof.Proof.KernelRun
import proofs.«148553_g82265803587872_cont_9to1_m_387_2_alg».proof.Proof.RefRead
import proofs.«148553_g82265803587872_cont_9to1_m_387_2_alg».proof.Proof.Bridge
import proofs.«148553_g82265803587872_cont_9to1_m_387_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx Cert.SoftQuant

/-- The kernel program runs and keeps its arguments. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference runs and keeps its arguments: its run, the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the quantised values and the assignments of the launch contents: the kernel's in the
    direct arrangement, the reference's in the shifted one, equal because every input entry is a real number. -/
theorem algebraic : Cert.algebraic_KernelIdeal_ReferenceIdeal := by
  intro m ρ m' ρ' hpre hagree
  refine ⟨fun c => fun i : Cert.KernelIdeal.S16x576x96.Idx =>
      quantDirect (m ((c : Thread Cert.KernelIdeal.nD Cert.KernelIdeal.τ).loc Cert.KernelIdeal.main_arg0) i)
        (fun j : Fin 64 => m ((c : Thread Cert.KernelIdeal.nD Cert.KernelIdeal.τ).loc Cert.KernelIdeal.main_arg1) (ix1 j)),
    fun c => fun i : Cert.KernelIdeal.S16x576x96x64.Idx =>
      assignDirect (m ((c : Thread Cert.KernelIdeal.nD Cert.KernelIdeal.τ).loc Cert.KernelIdeal.main_arg0) (ix3 (i 0) (i 1) (i 2)))
        (fun j : Fin 64 => m ((c : Thread Cert.KernelIdeal.nD Cert.KernelIdeal.τ).loc Cert.KernelIdeal.main_arg1) (ix1 j)) (i 3),
    Cert.KernelIdeal.Run.run m ρ, ?_⟩
  refine (θ_run Cert.ReferenceIdeal.defs _ _).mono (fun _ h c => ?_) (Cert.ReferenceIdeal.Value.run (F := Ideal) m' ρ')
  obtain ⟨hx, hcen⟩ := Cert.SoftQuant.Finite.real_inputs _ _ (hpre c)
  refine ⟨(h c).1.trans ((Cert.ReferenceIdeal.Read.val_main_v24_eq _ _).trans ?_),
    (h c).2.1.trans ((Cert.ReferenceIdeal.Read.val_main_v25_eq _ _).trans ?_), (h c).2.2.1, (h c).2.2.2⟩
  · rw [(hagree c).1, (hagree c).2]
    funext i
    refine (Cert.SoftQuant.Ref.ref_quant _ _ i).trans ?_
    exact (quant_agree _ _ (hx i) (fun k => hcen (ix1 k))).symm
  · rw [(hagree c).1, (hagree c).2]
    funext i
    refine (Cert.SoftQuant.Ref.ref_assign _ _ i).trans ?_
    exact (assign_agree _ _ (hx _) (fun k => hcen (ix1 k)) (i 3)).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
